-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S8192x1024 .f32) (main_arg1 : FVec F S3072x1024 .f32) (main_arg2 : FVec F S3072 .f32) (main_arg3 : FVec F S1024x1024 .f32) (main_arg4 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩
abbrev S1x16x64 : Shape := ⟨3, ![1, 16, 64]⟩
abbrev S16x1x64 : Shape := ⟨3, ![16, 1, 64]⟩
abbrev S16x16x1x1 : Shape := ⟨4, ![16, 16, 1, 1]⟩
abbrev S16x16x1x64 : Shape := ⟨4, ![16, 16, 1, 64]⟩
abbrev S512x1024 : Shape := ⟨2, ![512, 1024]⟩
abbrev S1x16x1x1 : Shape := ⟨4, ![1, 16, 1, 1]⟩
abbrev S1x16x1x64 : Shape := ⟨4, ![1, 16, 1, 64]⟩
abbrev S512x16x64 : Shape := ⟨3, ![512, 16, 64]⟩
abbrev S16x512x64 : Shape := ⟨3, ![16, 512, 64]⟩
abbrev S16x1x512 : Shape := ⟨3, ![16, 1, 512]⟩
abbrev S16x1 : Shape := ⟨2, ![16, 1]⟩
abbrev S16x1x1 : Shape := ⟨3, ![16, 1, 1]⟩
abbrev S_ : Shape := ⟨0, ![]⟩

abbrev nBuf : Space → Nat
  | .hbm => 48
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1x1024, .f32⟩
  | .hbm, ⟨12, _⟩ => ⟨S1024x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x16x64, .f32⟩
  | .hbm, ⟨17, _⟩ => ⟨S16x1x64, .f32⟩
  | .hbm, ⟨18, _⟩ => ⟨S1024x1024, .f32⟩
  | .hbm, ⟨19, _⟩ => ⟨S1024x1024, .bf16⟩
  | .hbm, ⟨20, _⟩ => ⟨S1024x1024, .f32⟩
  | .hbm, ⟨21, _⟩ => ⟨S1024x1024, .bf16⟩
  | .hbm, ⟨22, _⟩ => ⟨S1x1024, .f32⟩
  | .hbm, ⟨23, _⟩ => ⟨S1x1024, .f32⟩
  | .hbm, ⟨24, _⟩ => ⟨S16x16x1x1, .f32⟩
  | .hbm, ⟨25, _⟩ => ⟨S16x16x1x1, .f32⟩
  | .hbm, ⟨26, _⟩ => ⟨S16x16x1x64, .f32⟩
  | .hbm, ⟨27, _⟩ => ⟨S_, .f32⟩
  | .hbm, ⟨28, _⟩ => ⟨S16x1x1, .f32⟩
  | .hbm, ⟨29, _⟩ => ⟨S1x16x1x1, .f32⟩
  | .hbm, ⟨30, _⟩ => ⟨S16x16x1x1, .f32⟩
  | .hbm, ⟨31, _⟩ => ⟨S16x16x1x1, .f32⟩
  | .hbm, ⟨32, _⟩ => ⟨S16x16x1x1, .f32⟩
  | .hbm, ⟨33, _⟩ => ⟨S16x16x1x1, .f32⟩
  | .hbm, ⟨34, _⟩ => ⟨S_, .f32⟩
  | .hbm, ⟨35, _⟩ => ⟨S16x1x1, .f32⟩
  | .hbm, ⟨36, _⟩ => ⟨S16x16x1x64, .f32⟩
  | .hbm, ⟨37, _⟩ => ⟨S16x16x1x64, .f32⟩
  | .hbm, ⟨38, _⟩ => ⟨S_, .f32⟩
  | .hbm, ⟨39, _⟩ => ⟨S16x1x64, .f32⟩
  | .hbm, ⟨40, _⟩ => ⟨S16x1x64, .f32⟩
  | .hbm, ⟨41, _⟩ => ⟨S16x1x64, .f32⟩
  | .hbm, ⟨42, _⟩ => ⟨S1x16x64, .f32⟩
  | .hbm, ⟨43, _⟩ => ⟨S1x1024, .f32⟩
  | .hbm, ⟨44, _⟩ => ⟨S1024x1024, .f32⟩
  | .hbm, ⟨45, _⟩ => ⟨S1x1024, .f32⟩
  | .hbm, ⟨46, _⟩ => ⟨S1x1024, .f32⟩
  | .hbm, ⟨47, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S16x1x64, .f32⟩
  | .local _ .vmem, ⟨7, _⟩ => ⟨S1x16x1x1, .f32⟩
  | .local _ .vmem, ⟨8, _⟩ => ⟨S1x16x1x1, .f32⟩
  | .local _ .vmem, ⟨9, _⟩ => ⟨S1x16x1x1, .f32⟩
  | .local _ .vmem, ⟨10, _⟩ => ⟨S1x16x1x1, .f32⟩
  | .local _ .vmem, ⟨11, _⟩ => ⟨S1x16x1x64, .f32⟩
  | .local _ .vmem, ⟨12, _⟩ => ⟨S1x16x1x64, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_1 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S3072x1024_S1024x1024_0_0 : S3072x1024.Slices ![0, 0] S1024x1024
  slices_S3072x1024_S1024x1024_1024_0 : S3072x1024.Slices ![1024, 0] S1024x1024
  slices_S3072x1024_S1024x1024_2048_0 : S3072x1024.Slices ![2048, 0] S1024x1024
  slices_S3072_S1024_0 : S3072.Slices ![0] S1024
  slices_S3072_S1024_1024 : S3072.Slices ![1024] S1024
  slices_S3072_S1024_2048 : S3072.Slices ![2048] S1024
  slices_S8192x1024_S1x1024_0_0 : S8192x1024.Slices ![0, 0] S1x1024
  transposes_S1024x1024_S1024x1024_1_0 : S1024x1024.Transposes [1, 0] S1024x1024
  bcast_S1024_S1x1024_1 : S1024.BroadcastsInDim S1x1024 (![1] : Fin 1 → Fin S1x1024.rank)
  shapeCasts_S1x1024_S1x16x64 : S1x1024.ShapeCasts S1x16x64
  transposes_S1x16x64_S16x1x64_1_0_2 : S1x16x64.Transposes [1, 0, 2] S16x1x64
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  transposes_S512x16x64_p1_0_2_S16x512x64 : S512x16x64.Transposes [1, 0, 2] S16x512x64
  inb_S16x1x64_S16x1x64_0_0_0 : ∀ a, (![0, 0, 0] : Fin 3 → Nat) a + S16x1x64.size a ≤ S16x1x64.size a
  h_S16x1x64 : 0 < S16x1x64.numel
  shapeCasts_S16x1x64_S16x1x64 : S16x1x64.ShapeCasts S16x1x64
  reduces_S16x1x512_S16x1 : S16x1x512.Reduces [2] S16x1
  shapeCasts_S16x1_S16x1x1 : S16x1.ShapeCasts S16x1x1
  broadcasts_S16x1x1_S16x1x512 : S16x1x1.Broadcasts S16x1x512
  shapeCasts_S16x1x1_S1x16x1x1 : S16x1x1.ShapeCasts S1x16x1x1
  inb_S1x16x1x1_S1x16x1x1_0_0_0_0 : ∀ a, (![0, 0, 0, 0] : Fin 4 → Nat) a + S1x16x1x1.size a ≤ S1x16x1x1.size a
  h_S1x16x1x1 : 0 < S1x16x1x1.numel
  shapeCasts_S16x1x64_S1x16x1x64 : S16x1x64.ShapeCasts S1x16x1x64
  inb_S1x16x1x64_S1x16x1x64_0_0_0_0 : ∀ a, (![0, 0, 0, 0] : Fin 4 → Nat) a + S1x16x1x64.size a ≤ S1x16x1x64.size a
  h_S1x16x1x64 : 0 < S1x16x1x64.numel
  reducesTo_S16x16x1x1_S16x1x1_d0 : S16x16x1x1.ReducesTo [0] S16x1x1
  h_S_ : 0 < S_.numel
  bcast_S16x1x1_S1x16x1x1_1_2_3 : S16x1x1.BroadcastsInDim S1x16x1x1 (![1, 2, 3] : Fin 3 → Fin S1x16x1x1.rank)
  bcast_S1x16x1x1_S16x16x1x1_0_1_2_3 : S1x16x1x1.BroadcastsInDim S16x16x1x1 (![0, 1, 2, 3] : Fin 4 → Fin S16x16x1x1.rank)
  bcast_S16x16x1x1_S16x16x1x64_0_1_2_3 : S16x16x1x1.BroadcastsInDim S16x16x1x64 (![0, 1, 2, 3] : Fin 4 → Fin S16x16x1x64.rank)
  reducesTo_S16x16x1x64_S16x1x64_d0 : S16x16x1x64.ReducesTo [0] S16x1x64
  bcast_S16x1x1_S16x1x64_0_1_2 : S16x1x1.BroadcastsInDim S16x1x64 (![0, 1, 2] : Fin 3 → Fin S16x1x64.rank)
  transposes_S16x1x64_S1x16x64_1_0_2 : S16x1x64.Transposes [1, 0, 2] S1x16x64
  shapeCasts_S1x16x64_S1x1024 : S1x16x64.ShapeCasts S1x1024
  dot_S1x1024_S1024x1024_S1x1024_1_0_0_1_n_n_wf : DotDims.WF S1x1024 S1024x1024 S1x1024 [1] [0] [0] [1] [] []
  dot_S512x1024_S1024x1024_S512x1024_1_0_0_1_n_n_wf : DotDims.WF S512x1024 S1024x1024 S512x1024 [1] [0] [0] [1] [] []
  dot_S16x1x64_S16x512x64_S16x1x512_2_2_1_1_0_0_wf : DotDims.WF S16x1x64 S16x512x64 S16x1x512 [2] [2] [1] [1] [0] [0]
  dot_S16x1x512_S16x512x64_S16x1x64_2_1_1_2_0_0_wf : DotDims.WF S16x1x512 S16x512x64 S16x1x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1x64.size a ≤ S16x1x64.size a
  hwx0_5 : ∀ i : grid0.Coords, EltTy.bits .f32 = 32 ∨ (Rect.block (s := S16x1x64) S16x1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x1x1.size a ≤ S16x16x1x1.size a
  hwx0_6 : ∀ i : grid0.Coords, EltTy.bits .f32 = 32 ∨ (Rect.block (s := S16x16x1x1) S1x16x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x1x1.size a ≤ S16x16x1x1.size a
  hwx0_7 : ∀ i : grid0.Coords, EltTy.bits .f32 = 32 ∨ (Rect.block (s := S16x16x1x1) S1x16x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x1x64.size a ≤ S16x16x1x64.size a
  hwx0_8 : ∀ i : grid0.Coords, EltTy.bits .f32 = 32 ∨ (Rect.block (s := S16x16x1x64) S1x16x1x64.size (cc0_transform_8 i) (hinb0_8 i)).WholeWords (EltTy.packing .f32)

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S16x1x64_S16x512x64_S16x1x512_2_2_1_1_0_0 : DotDims S16x1x64 S16x512x64 S16x1x512 where
  lhsContracting := [2]
  rhsContracting := [2]
  lhsNonContracting := [1]
  rhsNonContracting := [1]
  lhsBatch := [0]
  rhsBatch := [0]
  wf := dot_S16x1x64_S16x512x64_S16x1x512_2_2_1_1_0_0_wf
def dot_S16x1x512_S16x512x64_S16x1x64_2_1_1_2_0_0 : DotDims S16x1x512 S16x512x64 S16x1x64 where
  lhsContracting := [2]
  rhsContracting := [1]
  lhsNonContracting := [1]
  rhsNonContracting := [2]
  lhsBatch := [0]
  rhsBatch := [0]
  wf := dot_S16x1x512_S16x512x64_S16x1x64_2_1_1_2_0_0_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S16x1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S1x16x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S1x16x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_2) S1x16x1x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1x1024 : Shape := ⟨2, ![1, 1024]⟩
abbrev S1x16x64 : Shape := ⟨3, ![1, 16, 64]⟩
abbrev S16x1x64 : Shape := ⟨3, ![16, 1, 64]⟩
abbrev S8192x16x64 : Shape := ⟨3, ![8192, 16, 64]⟩
abbrev S16x64x8192 : Shape := ⟨3, ![16, 64, 8192]⟩
abbrev S16x8192x64 : Shape := ⟨3, ![16, 8192, 64]⟩
abbrev S16x1x8192 : Shape := ⟨3, ![16, 1, 8192]⟩
abbrev S_ : Shape := ⟨0, ![]⟩
abbrev S16x1 : Shape := ⟨2, ![16, 1]⟩
abbrev S16x1x1 : Shape := ⟨3, ![16, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S1024x1024, .f32⟩
  | .hbm, ⟨7, _⟩ => ⟨S1024x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024x1024, .f32⟩
  | .hbm, ⟨13, _⟩ => ⟨S1024x1024, .f32⟩
  | .hbm, ⟨14, _⟩ => ⟨S8192x1024, .f32⟩
  | .hbm, ⟨15, _⟩ => ⟨S1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S1024x1024, .f32⟩
  | .hbm, ⟨20, _⟩ => ⟨S1024x1024, .f32⟩
  | .hbm, ⟨21, _⟩ => ⟨S8192x1024, .f32⟩
  | .hbm, ⟨22, _⟩ => ⟨S1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1x16x64, .f32⟩
  | .hbm, ⟨27, _⟩ => ⟨S16x1x64, .f32⟩
  | .hbm, ⟨28, _⟩ => ⟨S8192x16x64, .f32⟩
  | .hbm, ⟨29, _⟩ => ⟨S16x64x8192, .f32⟩
  | .hbm, ⟨30, _⟩ => ⟨S8192x16x64, .f32⟩
  | .hbm, ⟨31, _⟩ => ⟨S16x8192x64, .f32⟩
  | .hbm, ⟨32, _⟩ => ⟨S16x1x8192, .f32⟩
  | .hbm, ⟨33, _⟩ => ⟨S_, .f32⟩
  | .hbm, ⟨34, _⟩ => ⟨S16x1x8192, .f32⟩
  | .hbm, ⟨35, _⟩ => ⟨S16x1x8192, .f32⟩
  | .hbm, ⟨36, _⟩ => ⟨S_, .f32⟩
  | .hbm, ⟨37, _⟩ => ⟨S16x1, .f32⟩
  | .hbm, ⟨38, _⟩ => ⟨S_, .f32⟩
  | .hbm, ⟨39, _⟩ => ⟨S16x1, .f32⟩
  | .hbm, ⟨40, _⟩ => ⟨S16x1, .f32⟩
  | .hbm, ⟨41, _⟩ => ⟨S16x1x1, .f32⟩
  | .hbm, ⟨42, _⟩ => ⟨S16x1x8192, .f32⟩
  | .hbm, ⟨43, _⟩ => ⟨S16x1x8192, .f32⟩
  | .hbm, ⟨44, _⟩ => ⟨S16x1x8192, .f32⟩
  | .hbm, ⟨45, _⟩ => ⟨S_, .f32⟩
  | .hbm, ⟨46, _⟩ => ⟨S16x1, .f32⟩
  | .hbm, ⟨47, _⟩ => ⟨S16x1x1, .f32⟩
  | .hbm, ⟨48, _⟩ => ⟨S16x1x8192, .f32⟩
  | .hbm, ⟨49, _⟩ => ⟨S16x1x8192, .f32⟩
  | .hbm, ⟨50, _⟩ => ⟨S16x1x64, .f32⟩
  | .hbm, ⟨51, _⟩ => ⟨S1x16x64, .f32⟩
  | .hbm, ⟨52, _⟩ => ⟨S1x1024, .f32⟩
  | .hbm, ⟨53, _⟩ => ⟨S1024x1024, .f32⟩
  | .hbm, ⟨54, _⟩ => ⟨S1x1024, .f32⟩
  | .hbm, ⟨55, _⟩ => ⟨S1x1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst : Ref sig .tc := ⟨.hbm, 33, rfl⟩
abbrev main_v28 : Ref sig .tc := ⟨.hbm, 34, rfl⟩
abbrev main_v29 : Ref sig .tc := ⟨.hbm, 35, rfl⟩
abbrev main_cst_0 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_2 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩

abbrev nD : Nat := 1
abbrev τ : Topo := Topo.v7x

variable {F : FTy → Type} [FloatOps F]

class Facts₀ : Prop where
  slices_S8192x1024_S1x1024_0_0 : S8192x1024.Slices ![0, 0] S1x1024
  slices_S3072x1024_S1024x1024_0_0 : S3072x1024.Slices ![0, 0] S1024x1024
  transposes_S1024x1024_S1024x1024_1_0 : S1024x1024.Transposes [1, 0] S1024x1024
  slices_S3072_S1024_0 : S3072.Slices ![0] S1024
  bcast_S1024_S1x1024_1 : S1024.BroadcastsInDim S1x1024 (![1] : Fin 1 → Fin S1x1024.rank)
  slices_S3072x1024_S1024x1024_1024_0 : S3072x1024.Slices ![1024, 0] S1024x1024
  slices_S3072_S1024_1024 : S3072.Slices ![1024] S1024
  bcast_S1x1024_S8192x1024_0_1 : S1x1024.BroadcastsInDim S8192x1024 (![0, 1] : Fin 2 → Fin S8192x1024.rank)
  slices_S3072x1024_S1024x1024_2048_0 : S3072x1024.Slices ![2048, 0] S1024x1024
  slices_S3072_S1024_2048 : S3072.Slices ![2048] S1024
  shapeCasts_S1x1024_S1x16x64 : S1x1024.ShapeCasts S1x16x64
  transposes_S1x16x64_S16x1x64_1_0_2 : S1x16x64.Transposes [1, 0, 2] S16x1x64
  shapeCasts_S8192x1024_S8192x16x64 : S8192x1024.ShapeCasts S8192x16x64
  transposes_S8192x16x64_S16x64x8192_1_2_0 : S8192x16x64.Transposes [1, 2, 0] S16x64x8192
  transposes_S8192x16x64_S16x8192x64_1_0_2 : S8192x16x64.Transposes [1, 0, 2] S16x8192x64
  bcast_S_S16x1x8192 : S_.BroadcastsInDim S16x1x8192 (![] : Fin 0 → Fin S16x1x8192.rank)
  reducesTo_S16x1x8192_S16x1_d2 : S16x1x8192.ReducesTo [2] S16x1
  h_S_ : 0 < S_.numel
  bcast_S_S16x1 : S_.BroadcastsInDim S16x1 (![] : Fin 0 → Fin S16x1.rank)
  bcast_S16x1_S16x1x1_0_1 : S16x1.BroadcastsInDim S16x1x1 (![0, 1] : Fin 2 → Fin S16x1x1.rank)
  bcast_S16x1x1_S16x1x8192_0_1_2 : S16x1x1.BroadcastsInDim S16x1x8192 (![0, 1, 2] : Fin 3 → Fin S16x1x8192.rank)
  transposes_S16x1x64_S1x16x64_1_0_2 : S16x1x64.Transposes [1, 0, 2] S1x16x64
  shapeCasts_S1x16x64_S1x1024 : S1x16x64.ShapeCasts S1x1024
  dot_S1x1024_S1024x1024_S1x1024_1_0_0_1_n_n_wf : DotDims.WF S1x1024 S1024x1024 S1x1024 [1] [0] [0] [1] [] []
  dot_S8192x1024_S1024x1024_S8192x1024_1_0_0_1_n_n_wf : DotDims.WF S8192x1024 S1024x1024 S8192x1024 [1] [0] [0] [1] [] []
  dot_S16x1x64_S16x64x8192_S16x1x8192_2_1_1_2_0_0_wf : DotDims.WF S16x1x64 S16x64x8192 S16x1x8192 [2] [1] [1] [2] [0] [0]
  dot_S16x1x8192_S16x8192x64_S16x1x64_2_1_1_2_0_0_wf : DotDims.WF S16x1x8192 S16x8192x64 S16x1x64 [2] [1] [1] [2] [0] [0]

variable [Facts₀]

def dot_S1x1024_S1024x1024_S1x1024_1_0_0_1_n_n : DotDims S1x1024 S1024x1024 S1x1024 where
  lhsContracting := [1]
  rhsContracting := [0]
  lhsNonContracting := [0]
  rhsNonContracting := [1]
  lhsBatch := []
  rhsBatch := []
  wf := dot_S1x1024_S1024x1024_S1x1024_1_0_0_1_n_n_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def dot_S16x1x64_S16x64x8192_S16x1x8192_2_1_1_2_0_0 : DotDims S16x1x64 S16x64x8192 S16x1x8192 where
  lhsContracting := [2]
  rhsContracting := [1]
  lhsNonContracting := [1]
  rhsNonContracting := [2]
  lhsBatch := [0]
  rhsBatch := [0]
  wf := dot_S16x1x64_S16x64x8192_S16x1x8192_2_1_1_2_0_0_wf
def dot_S16x1x8192_S16x8192x64_S16x1x64_2_1_1_2_0_0 : DotDims S16x1x8192 S16x8192x64 S16x1x64 where
  lhsContracting := [2]
  rhsContracting := [1]
  lhsNonContracting := [1]
  rhsNonContracting := [2]
  lhsBatch := [0]
  rhsBatch := [0]
  wf := dot_S16x1x8192_S16x8192x64_S16x1x64_2_1_1_2_0_0_wf

class Facts : Prop extends Facts₀ where

variable [Facts]
-- ==== Proof.Attention.lean ====
/-
  Single-query multi-head attention, as plain functions on the extended reals.

  One head attends one query to 8192 keys.  With scores `s k` and (one coordinate of the) values `v k`
  the result is the softmax-weighted mean  Σ_k softmax(s)_k · v k.  The reference computes it in one
  piece (`whole`): the row maximum, the exponentials of the differences, their sum, the quotients, the
  weighted sum.  The kernel cuts the keys into 16 tiles of 512 (`key i r = 512·i + r`), computes per
  tile the tile's maximum, the sum of the exponentials relative to it and the weighted sum relative to
  it (`blockMax`, `blockSum`, `blockAcc`), and then rescales and adds the tiles (`combine`).
  The scores and the values themselves are the projections `proj` of the input rows, written here
  once so that both programs are read down to the same expression of the argument arrays.
-/
import Idealize.ShloMosaic.PureOps.Ideal
import Idealize.ShloMosaic.Lib.ValueIdx

noncomputable section

namespace Cert.Attention

open Idealize.ShloMosaic Idealize.ShloMosaic.ValueIdx

/-- The key that row `r` of tile `i` holds: `512·i + r`. -/
def key (i : Fin 16) (r : Fin 512) : Fin 8192 :=
  ⟨512 * i.val + r.val, by have := i.isLt; have := r.isLt; omega⟩

/-- Column `64·h + d` of a flat 1024-wide row: coordinate `d` of head `h`. -/
def col (h : Fin 16) (d : Fin 64) : Fin 1024 :=
  ⟨64 * h.val + d.val, by have := h.isLt; have := d.isLt; omega⟩

/-- Row `off + e` of the stacked 3072-row projection weight (`off` = 0, 1024, 2048 for q, k, v). -/
def wrow (off : Nat) (hoff : off + 1024 ≤ 3072) (e : Fin 1024) : Fin 3072 :=
  ⟨off + e.val, by have := e.isLt; omega⟩

/-! ## One tile -/

/-- The maximum of a tile's scores, from `-∞`. -/
def blockMax (f : Fin 512 → EReal) : EReal := (Finset.univ : Finset (Fin 512)).fold max ⊥ f
/-- The sum of the tile's exponentials relative to the tile's maximum. -/
def blockSum (f : Fin 512 → EReal) : EReal := ∑ r : Fin 512, Ideal.exp (f r - blockMax f)
/-- The tile's values weighted by those exponentials. -/
def blockAcc (f g : Fin 512 → EReal) : EReal := ∑ r : Fin 512, Ideal.exp (f r - blockMax f) * g r

/-! ## The tiles combined -/

/-- From the tiles' maxima `mx`, sums `l` and weighted sums `a`: each tile rescaled by
    `exp (mx i - M)`, `M` the maximum of the maxima, and the quotient of the two totals. -/
def combine (mx l a : Fin 16 → EReal) : EReal :=
  Ideal.div (0 + ∑ i : Fin 16, Ideal.exp (mx i - (Finset.univ : Finset (Fin 16)).fold max ⊥ mx) * a i)
    (0 + ∑ i : Fin 16, Ideal.exp (mx i - (Finset.univ : Finset (Fin 16)).fold max ⊥ mx) * l i)

/-- The kernel's road: tile by tile, then combined. -/
def tiled (s v : Fin 8192 → EReal) : EReal :=
  combine (fun i => blockMax fun r => s (key i r)) (fun i => blockSum fun r => s (key i r))
    (fun i => blockAcc (fun r => s (key i r)) fun r => v (key i r))

/-! ## The reference's road -/

/-- The row maximum as the reference takes it (a maximum with `-∞` once more). -/
def rowMax (s : Fin 8192 → EReal) : EReal := max ⊥ ((Finset.univ : Finset (Fin 8192)).fold max ⊥ s)
/-- The softmax weights times the values, summed over all keys. -/
def whole (s v : Fin 8192 → EReal) : EReal :=
  ∑ k : Fin 8192, Ideal.div (Ideal.exp (s k - rowMax s)) (0 + ∑ k' : Fin 8192, Ideal.exp (s k' - rowMax s)) * v k

/-! ## Scores and values from the argument arrays -/

/-- A projection of input row `k`: `Σ_j x[k, j] · w[off + e, j] + b[off + e]`. -/
def proj (off : Nat) (hoff : off + 1024 ≤ 3072) (x : (⟨2, ![8192, 1024]⟩ : Shape).Idx → EReal)
    (w : (⟨2, ![3072, 1024]⟩ : Shape).Idx → EReal) (b : (⟨1, ![3072]⟩ : Shape).Idx → EReal)
    (k : Fin 8192) (e : Fin 1024) : EReal :=
  (∑ j : Fin 1024, x (ix2 k j) * w (ix2 (wrow off hoff e) j)) + b (ix1 (wrow off hoff e))

/-- Head `h`'s score of key `k`: the query's head row against the key projection's head columns, times 1/8. -/
def score (q : (⟨3, ![16, 1, 64]⟩ : Shape).Idx → EReal) (x : (⟨2, ![8192, 1024]⟩ : Shape).Idx → EReal)
    (w : (⟨2, ![3072, 1024]⟩ : Shape).Idx → EReal) (b : (⟨1, ![3072]⟩ : Shape).Idx → EReal)
    (h : Fin 16) (k : Fin 8192) : EReal :=
  (∑ d : Fin 64, q (ix3 h (0 : Fin 1) d) * proj 1024 (by norm_num) x w b k (col h d)) * Ideal.ofBits .f32 0x3E000000#32

/-- Coordinate `d` of head `h`'s value of key `k`. -/
def value (x : (⟨2, ![8192, 1024]⟩ : Shape).Idx → EReal) (w : (⟨2, ![3072, 1024]⟩ : Shape).Idx → EReal)
    (b : (⟨1, ![3072]⟩ : Shape).Idx → EReal) (h : Fin 16) (d : Fin 64) (k : Fin 8192) : EReal :=
  proj 2048 (by norm_num) x w b k (col h d)

/-- An extended real that is a real number. -/
def IsReal (x : EReal) : Prop := ∃ r : ℝ, x = (r : EReal)

end Cert.Attention

end
-- ==== Proof.CombineTail.lean ====
/-
  The last stretch of the kernel program, after the tiled pass: the sixteen tiles' partial results
  (each tile's score maximum, its sum of exponentials relative to that maximum, and its values weighted
  by those exponentials) are brought to the common maximum and added up, the two totals are divided,
  and the heads are laid side by side and sent through the output projection.

  Read at head h and coordinate d the quotient is Attention.combine of the three families of
  per-tile numbers: with M the maximum over the tiles of the tile maxima m i,
      ( 0 + Σ_i exp (m i − M) · a i ) / ( 0 + Σ_i exp (m i − M) · l i ).
-/
import proofs.«157563_j35897336660262_2_alg».proof.KernelIdeal
import proofs.«157563_j35897336660262_2_alg».proof.Proof.Attention
import Idealize.ShloMosaic.Lib.Pipeline.Value
import Idealize.ShloMosaic.Lib.ValueIdx
import Idealize.ShloMosaic.PureOps.Ideal.Laws

noncomputable section

namespace Cert.CombineTail

open Cert.KernelIdeal Idealize.ShloMosaic Idealize.ShloMosaic.ValueIdx
open Cert.KernelIdeal.Facts₀ Cert.KernelIdeal.Facts

variable {F : FTy → Type} [FloatOps F] [Cert.KernelIdeal.Facts]

/-! ## The operations, as one expression of the three arrays -/

/-- The maximum over the tiles of the tiles' maxima, from -∞: one number per head. -/
def tileMax (mA : FVec F S16x16x1x1 .f32) : FVec F S16x1x1 .f32 :=
  Host.reduce FloatOps.maximumf mA (constant S_ .f32 0xFF800000#32) reducesTo_S16x16x1x1_S16x1x1_d0 h_S_

/-- The factor that brings tile i of head h to the common maximum: exp (m i h − M h). -/
def scale (mA : FVec F S16x16x1x1 .f32) : FVec F S16x16x1x1 .f32 :=
  Host.exp (subf mA (broadcastInDim S16x16x1x1 ![0, 1, 2, 3] bcast_S1x16x1x1_S16x16x1x1_0_1_2_3
    (broadcastInDim S1x16x1x1 ![1, 2, 3] bcast_S16x1x1_S1x16x1x1_1_2_3
      (Host.reduce FloatOps.maximumf mA (constant S_ .f32 0xFF800000#32) reducesTo_S16x16x1x1_S16x1x1_d0 h_S_))))

/-- The tiles' partial results rescaled to the common maximum, summed, and divided. -/
def attnOut (mA lA : FVec F S16x16x1x1 .f32) (aA : FVec F S16x16x1x64 .f32) : FVec F S16x1x64 .f32 :=
  Host.divf
    (Host.reduceAdd
      (mulf
        (broadcastInDim S16x16x1x64 ![0, 1, 2, 3] bcast_S16x16x1x1_S16x16x1x64_0_1_2_3
          (Host.exp (subf mA (broadcastInDim S16x16x1x1 ![0, 1, 2, 3] bcast_S1x16x1x1_S16x16x1x1_0_1_2_3
            (broadcastInDim S1x16x1x1 ![1, 2, 3] bcast_S16x1x1_S1x16x1x1_1_2_3
              (Host.reduce FloatOps.maximumf mA (constant S_ .f32 0xFF800000#32) reducesTo_S16x16x1x1_S16x1x1_d0 h_S_))))))
        aA)
      (constant S_ .f32 0x00000000#32) reducesTo_S16x16x1x64_S16x1x64_d0 h_S_)
    (broadcastInDim S16x1x64 ![0, 1, 2] bcast_S16x1x1_S16x1x64_0_1_2
      (Host.reduceAdd
        (mulf
          (Host.exp (subf mA (broadcastInDim S16x16x1x1 ![0, 1, 2, 3] bcast_S1x16x1x1_S16x16x1x1_0_1_2_3
            (broadcastInDim S1x16x1x1 ![1, 2, 3] bcast_S16x1x1_S1x16x1x1_1_2_3
              (Host.reduce FloatOps.maximumf mA (constant S_ .f32 0xFF800000#32) reducesTo_S16x16x1x1_S16x1x1_d0 h_S_)))))
          lA)
        (constant S_ .f32 0x00000000#32) reducesTo_S16x16x1x1_S16x1x1_d0 h_S_))

/-- Heads laid side by side as one 1024-wide row, times the output weight's transpose, plus the output bias. -/
def outProj (att : FVec F S16x1x64 .f32) (x3 : FVec F S1024x1024 .f32) (x4 : FVec F S1024 .f32) : FVec F S1x1024 .f32 :=
  addf
    (Host.dotGeneral dot_S1x1024_S1024x1024_S1x1024_1_0_0_1_n_n none
      (shapeCast S1x1024 (transpose S1x16x64 [1, 0, 2] att transposes_S16x1x64_S1x16x64_1_0_2) shapeCasts_S1x16x64_S1x1024)
      (transpose S1024x1024 [1, 0] x3 transposes_S1024x1024_S1024x1024_1_0))
    (broadcastInDim S1x1024 ![1] bcast_S1024_S1x1024_1 x4)

/-- The quotient, written with the two named pieces. -/
theorem attnOut_eq (mA lA : FVec F S16x16x1x1 .f32) (aA : FVec F S16x16x1x64 .f32) :
    attnOut mA lA aA
      = Host.divf
          (Host.reduceAdd (mulf (broadcastInDim S16x16x1x64 ![0, 1, 2, 3] bcast_S16x16x1x1_S16x16x1x64_0_1_2_3 (scale mA)) aA)
            (constant S_ .f32 0x00000000#32) reducesTo_S16x16x1x64_S16x1x64_d0 h_S_)
          (broadcastInDim S16x1x64 ![0, 1, 2] bcast_S16x1x1_S16x1x64_0_1_2
            (Host.reduceAdd (mulf (scale mA) lA) (constant S_ .f32 0x00000000#32) reducesTo_S16x16x1x1_S16x1x1_d0 h_S_)) := rfl

theorem scale_eq (mA : FVec F S16x16x1x1 .f32) :
    scale mA = Host.exp (subf mA (broadcastInDim S16x16x1x1 ![0, 1, 2, 3] bcast_S1x16x1x1_S16x16x1x1_0_1_2_3
      (broadcastInDim S1x16x1x1 ![1, 2, 3] bcast_S16x1x1_S1x16x1x1_1_2_3 (tileMax mA)))) := rfl

/-! ## Each operation read at an index, at the ideal values -/

/-- -∞ as a 32-bit word is the bottom element. -/
theorem ofBits_negInf : Ideal.ofBits .f32 0xFF800000#32 = (⊥ : EReal) := by simp [Ideal.ofBits, Ideal.ieee]

/-- The index of head h with tile i put back in front is (i, h, 0, 0). -/
theorem lift4 (hR : S16x16x1x1.Reduces [0] S16x1x1) (h : Fin 16) (k : Fin (S16x16x1x1.size 0)) :
    hR.lift (ix3 h (0 : Fin 1) (0 : Fin 1)) k = ix4 (⟨k.val, k.isLt⟩ : Fin 16) h (0 : Fin 1) (0 : Fin 1) := by
  funext c; apply Fin.ext
  match c with
  | ⟨0, _⟩ => rfl
  | ⟨1, _⟩ => rfl
  | ⟨2, _⟩ => rfl
  | ⟨3, _⟩ => rfl

/-- The index (h, 0, d) with tile i put back in front is (i, h, 0, d). -/
theorem lift4d (hR : S16x16x1x64.Reduces [0] S16x1x64) (h : Fin 16) (d : Fin 64) (k : Fin (S16x16x1x64.size 0)) :
    hR.lift (ix3 h (0 : Fin 1) d) k = ix4 (⟨k.val, k.isLt⟩ : Fin 16) h (0 : Fin 1) d := by
  funext c; apply Fin.ext
  match c with
  | ⟨0, _⟩ => rfl
  | ⟨1, _⟩ => rfl
  | ⟨2, _⟩ => rfl
  | ⟨3, _⟩ => rfl

/-- The maximum over the tiles, at head h: the fold of max from ⊥ over the sixteen tile maxima. -/
theorem tileMax_apply (mA : FVec Ideal S16x16x1x1 .f32) (h : Fin 16) :
    tileMax (F := Ideal) mA (ix3 h (0 : Fin 1) (0 : Fin 1))
      = (Finset.univ : Finset (Fin 16)).fold max ⊥ (fun i => mA (ix4 i h (0 : Fin 1) (0 : Fin 1))) := by
  unfold tileMax
  have hR : S16x16x1x1.Reduces [0] S16x1x1 := by decide
  rw [Host.reduce_eq_fold_single FloatOps.maximumf mA _ reducesTo_S16x16x1x1_S16x1x1_d0 hR h_S_]
  have hf : (mA ∘ hR.lift (ix3 h (0 : Fin 1) (0 : Fin 1))) = fun k : Fin 16 => mA (ix4 k h (0 : Fin 1) (0 : Fin 1)) :=
    funext fun k => congrArg mA (lift4 hR h k)
  have hi : (constant (F := Ideal) S_ .f32 0xFF800000#32) (Shape.Idx.first h_S_) = (⊥ : EReal) := ofBits_negInf
  rw [hi]
  exact congrArg (fun f => Finset.fold max (⊥ : EReal) f (Finset.univ : Finset (Fin 16))) hf

/-- One number per head, given a leading unit axis: read at (0, h, 0, 0) it is the number of head h. -/
theorem bcastHead_apply {α : Type} (y : S16x1x1.Idx → α) (h : Fin 16) :
    broadcastInDim S1x16x1x1 ![1, 2, 3] bcast_S16x1x1_S1x16x1x1_1_2_3 y (ix4 (0 : Fin 1) h (0 : Fin 1) (0 : Fin 1))
      = y (ix3 h (0 : Fin 1) (0 : Fin 1)) :=
  broadcastInDim_apply _ bcast_S16x1x1_S1x16x1x1_1_2_3 y _ (ix3 h (0 : Fin 1) (0 : Fin 1)) (fun a => match a with
    | ⟨0, _⟩ => by show h.val = if (16 : Nat) = 1 then 0 else h.val; rw [if_neg (by decide)]
    | ⟨1, _⟩ => by show 0 = if (1 : Nat) = 1 then 0 else (0 : Fin 1).val; rw [if_pos rfl]
    | ⟨2, _⟩ => by show 0 = if (1 : Nat) = 1 then 0 else (0 : Fin 1).val; rw [if_pos rfl])

/-- Repeated along the tiles: read at (i, h, 0, 0) it is the entry (0, h, 0, 0). -/
theorem bcastTiles_apply {α : Type} (y : S1x16x1x1.Idx → α) (i h : Fin 16) :
    broadcastInDim S16x16x1x1 ![0, 1, 2, 3] bcast_S1x16x1x1_S16x16x1x1_0_1_2_3 y (ix4 i h (0 : Fin 1) (0 : Fin 1))
      = y (ix4 (0 : Fin 1) h (0 : Fin 1) (0 : Fin 1)) :=
  broadcastInDim_apply _ bcast_S1x16x1x1_S16x16x1x1_0_1_2_3 y _ (ix4 (0 : Fin 1) h (0 : Fin 1) (0 : Fin 1)) (fun a => match a with
    | ⟨0, _⟩ => by show 0 = if (1 : Nat) = 1 then 0 else i.val; rw [if_pos rfl]
    | ⟨1, _⟩ => by show h.val = if (16 : Nat) = 1 then 0 else h.val; rw [if_neg (by decide)]
    | ⟨2, _⟩ => by show 0 = if (1 : Nat) = 1 then 0 else (0 : Fin 1).val; rw [if_pos rfl]
    | ⟨3, _⟩ => by show 0 = if (1 : Nat) = 1 then 0 else (0 : Fin 1).val; rw [if_pos rfl])

/-- Repeated along the 64 coordinates: read at (i, h, 0, d) it is the entry (i, h, 0, 0). -/
theorem bcastCoord_apply {α : Type} (y : S16x16x1x1.Idx → α) (i h : Fin 16) (d : Fin 64) :
    broadcastInDim S16x16x1x64 ![0, 1, 2, 3] bcast_S16x16x1x1_S16x16x1x64_0_1_2_3 y (ix4 i h (0 : Fin 1) d)
      = y (ix4 i h (0 : Fin 1) (0 : Fin 1)) :=
  broadcastInDim_apply _ bcast_S16x16x1x1_S16x16x1x64_0_1_2_3 y _ (ix4 i h (0 : Fin 1) (0 : Fin 1)) (fun a => match a with
    | ⟨0, _⟩ => by show i.val = if (16 : Nat) = 1 then 0 else i.val; rw [if_neg (by decide)]
    | ⟨1, _⟩ => by show h.val = if (16 : Nat) = 1 then 0 else h.val; rw [if_neg (by decide)]
    | ⟨2, _⟩ => by show 0 = if (1 : Nat) = 1 then 0 else (0 : Fin 1).val; rw [if_pos rfl]
    | ⟨3, _⟩ => by show 0 = if (1 : Nat) = 1 then 0 else d.val; rw [if_pos rfl])

/-- The total per head repeated along the 64 coordinates: read at (h, 0, d) it is the entry (h, 0, 0). -/
theorem bcastTotal_apply {α : Type} (y : S16x1x1.Idx → α) (h : Fin 16) (d : Fin 64) :
    broadcastInDim S16x1x64 ![0, 1, 2] bcast_S16x1x1_S16x1x64_0_1_2 y (ix3 h (0 : Fin 1) d)
      = y (ix3 h (0 : Fin 1) (0 : Fin 1)) :=
  broadcastInDim_apply _ bcast_S16x1x1_S16x1x64_0_1_2 y _ (ix3 h (0 : Fin 1) (0 : Fin 1)) (fun a => match a with
    | ⟨0, _⟩ => by show h.val = if (16 : Nat) = 1 then 0 else h.val; rw [if_neg (by decide)]
    | ⟨1, _⟩ => by show 0 = if (1 : Nat) = 1 then 0 else (0 : Fin 1).val; rw [if_pos rfl]
    | ⟨2, _⟩ => by show 0 = if (1 : Nat) = 1 then 0 else d.val; rw [if_pos rfl])

/-- The scale of tile i of head h: exp (m i − M), M the maximum of the sixteen tile maxima of head h. -/
theorem scale_apply (mA : FVec Ideal S16x16x1x1 .f32) (i h : Fin 16) :
    scale (F := Ideal) mA (ix4 i h (0 : Fin 1) (0 : Fin 1))
      = Ideal.exp (mA (ix4 i h (0 : Fin 1) (0 : Fin 1))
          - (Finset.univ : Finset (Fin 16)).fold max ⊥ (fun i => mA (ix4 i h (0 : Fin 1) (0 : Fin 1)))) := by
  rw [scale_eq]
  show FloatOps.hostUnary .exp (mA (ix4 i h (0 : Fin 1) (0 : Fin 1))
      - broadcastInDim S16x16x1x1 ![0, 1, 2, 3] bcast_S1x16x1x1_S16x16x1x1_0_1_2_3
          (broadcastInDim S1x16x1x1 ![1, 2, 3] bcast_S16x1x1_S1x16x1x1_1_2_3 (tileMax (F := Ideal) mA)) (ix4 i h (0 : Fin 1) (0 : Fin 1))) = _
  rw [bcastTiles_apply, bcastHead_apply, tileMax_apply, Ideal.hostUnary_exp_def]

/-- The host's float sum over the tiles of a 16×16×1×1 array, at head h: the initial value plus the sixteen entries of head h. -/
theorem sumTiles_apply (x : FVec Ideal S16x16x1x1 .f32) (h : Fin 16) :
    Host.reduceAdd (F := Ideal) x (constant S_ .f32 0x00000000#32) reducesTo_S16x16x1x1_S16x1x1_d0 h_S_ (ix3 h (0 : Fin 1) (0 : Fin 1))
      = 0 + ∑ i : Fin 16, x (ix4 i h (0 : Fin 1) (0 : Fin 1)) := by
  have hR : S16x16x1x1.Reduces [0] S16x1x1 := by decide
  simp only [Host.reduceAdd, Ideal.hostReduceAdd_def]
  rw [Ideal.hostReduceAdd_single reducesTo_S16x16x1x1_S16x1x1_d0 hR]
  have hi : (constant (F := Ideal) S_ .f32 0x00000000#32) (Shape.Idx.first h_S_) = (0 : EReal) := Ideal.ofBits_zero_f32
  rw [hi]
  refine congrArg (0 + ·) ?_
  show ∑ k : Fin 16, x (hR.lift (ix3 h (0 : Fin 1) (0 : Fin 1)) k) = _
  exact Finset.sum_congr rfl fun k _ => congrArg x (lift4 hR h k)

/-- The same sum for a 16×16×1×64 array, at head h and coordinate d. -/
theorem sumTilesCoord_apply (x : FVec Ideal S16x16x1x64 .f32) (h : Fin 16) (d : Fin 64) :
    Host.reduceAdd (F := Ideal) x (constant S_ .f32 0x00000000#32) reducesTo_S16x16x1x64_S16x1x64_d0 h_S_ (ix3 h (0 : Fin 1) d)
      = 0 + ∑ i : Fin 16, x (ix4 i h (0 : Fin 1) d) := by
  have hR : S16x16x1x64.Reduces [0] S16x1x64 := by decide
  simp only [Host.reduceAdd, Ideal.hostReduceAdd_def]
  rw [Ideal.hostReduceAdd_single reducesTo_S16x16x1x64_S16x1x64_d0 hR]
  have hi : (constant (F := Ideal) S_ .f32 0x00000000#32) (Shape.Idx.first h_S_) = (0 : EReal) := Ideal.ofBits_zero_f32
  rw [hi]
  refine congrArg (0 + ·) ?_
  show ∑ k : Fin 16, x (hR.lift (ix3 h (0 : Fin 1) d) k) = _
  exact Finset.sum_congr rfl fun k _ => congrArg x (lift4d hR h d k)

/-! ## The quotient at an index -/

/-- At head h and coordinate d the quotient is the combination of the sixteen tiles' maxima, sums and weighted values. -/
theorem attnOut_apply (mA lA : FVec Ideal S16x16x1x1 .f32) (aA : FVec Ideal S16x16x1x64 .f32) (h : Fin 16) (d : Fin 64) :
    attnOut (F := Ideal) mA lA aA (ix3 h (0 : Fin 1) d)
      = Attention.combine (fun i => mA (ix4 i h (0 : Fin 1) (0 : Fin 1))) (fun i => lA (ix4 i h (0 : Fin 1) (0 : Fin 1)))
          (fun i => aA (ix4 i h (0 : Fin 1) d)) := by
  rw [attnOut_eq]
  show FloatOps.hostDivf
      (Host.reduceAdd (F := Ideal) (mulf (broadcastInDim S16x16x1x64 ![0, 1, 2, 3] bcast_S16x16x1x1_S16x16x1x64_0_1_2_3 (scale (F := Ideal) mA)) aA)
        (constant S_ .f32 0x00000000#32) reducesTo_S16x16x1x64_S16x1x64_d0 h_S_ (ix3 h (0 : Fin 1) d))
      (broadcastInDim S16x1x64 ![0, 1, 2] bcast_S16x1x1_S16x1x64_0_1_2
        (Host.reduceAdd (F := Ideal) (mulf (scale (F := Ideal) mA) lA) (constant S_ .f32 0x00000000#32) reducesTo_S16x16x1x1_S16x1x1_d0 h_S_)
        (ix3 h (0 : Fin 1) d)) = _
  rw [bcastTotal_apply, sumTiles_apply, sumTilesCoord_apply, Ideal.hostDivf_def]
  unfold Attention.combine
  refine congrArg₂ Ideal.div (congrArg (0 + ·) (Finset.sum_congr rfl fun i _ => ?_)) (congrArg (0 + ·) (Finset.sum_congr rfl fun i _ => ?_))
  · show broadcastInDim S16x16x1x64 ![0, 1, 2, 3] bcast_S16x16x1x1_S16x16x1x64_0_1_2_3 (scale (F := Ideal) mA) (ix4 i h (0 : Fin 1) d)
        * aA (ix4 i h (0 : Fin 1) d) = _
    rw [bcastCoord_apply, scale_apply]
  · show scale (F := Ideal) mA (ix4 i h (0 : Fin 1) (0 : Fin 1)) * lA (ix4 i h (0 : Fin 1) (0 : Fin 1)) = _
    rw [scale_apply]

end Cert.CombineTail

end
-- ==== Proof.TileBody.lean ====
/-
  The tile body's arithmetic, read at an index.

  The body of the kernel works on one tile of 512 input rows.  It projects the rows to keys and to
  values (a matrix product with the transposed weight block plus the bias row), regroups the 1024
  columns into 16 heads of 64 coordinates, takes each head's scores against the query (a sum over
  the 64 coordinates, times 1/8), the scores' maximum over the tile's rows, the exponentials of the
  differences, their sum, and the sum of the exponentials times the values.  At the extended reals
  a narrowing of the float format is the identity and a matrix product into a zero accumulator is a
  plain finite sum, so each of these values is, at an index, an explicit expression of the loaded
  blocks.  This module proves these readings: `pay_max`, `pay_sum` and `pay_acc` say that the three
  stored values are the tile's `blockMax`, `blockSum` and `blockAcc` of the scores `tscore` and the
  values `tvalue`.
-/
import proofs.«157563_j35897336660262_2_alg».proof.Proof.Gen.KernelIdeal.Skeleton
import proofs.«157563_j35897336660262_2_alg».proof.Proof.Attention
import Idealize.ShloMosaic.Lib.Pipeline.Value
import Idealize.ShloMosaic.Lib.ValueIdx
import Idealize.ShloMosaic.Lib.ValueLayout
import Idealize.ShloMosaic.PureOps.Ideal.Laws

noncomputable section

namespace Cert.TileBody

open Cert.KernelIdeal Cert.KernelIdeal.Gen Idealize.ShloMosaic Idealize.ShloMosaic.ValueIdx

/-- Head `h`'s score of the tile's row `r`, from the loaded blocks. -/
def tscore (x0 : Vec Ideal S512x1024 .f32) (x1 : Vec Ideal S1024x1024 .bf16) (x3 : Vec Ideal S1x1024 .f32)
    (x5 : Vec Ideal S16x1x64 .f32) (h : Fin 16) (r : Fin 512) : EReal :=
  (∑ d : Fin 64, x5 (ix3 h (0 : Fin 1) d) * ((∑ j : Fin 1024, x0 (ix2 r j) * x1 (ix2 j (Attention.col h d))) + x3 (ix2 (0 : Fin 1) (Attention.col h d)))) * Ideal.ofBits .f32 0x3E000000#32

/-- Coordinate `d` of head `h`'s value of the tile's row `r`. -/
def tvalue (x0 : Vec Ideal S512x1024 .f32) (x2 : Vec Ideal S1024x1024 .bf16) (x4 : Vec Ideal S1x1024 .f32)
    (h : Fin 16) (d : Fin 64) (r : Fin 512) : EReal :=
  (∑ j : Fin 1024, x0 (ix2 r j) * x2 (ix2 j (Attention.col h d))) + x4 (ix2 (0 : Fin 1) (Attention.col h d))

/-! ## The three matrix products as sums over one coordinate

For each of the body's three products: the coordinates of the two operand indices that the output
index `i` and the contraction index `q` determine, then the product into the zero accumulator as a
sum over the contracted coordinate. -/

theorem lhs_dot_S512x1024_S1024x1024_S512x1024_1_0_0_1_n_n_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_dot_S512x1024_S1024x1024_S512x1024_1_0_0_1_n_n_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_dot_S512x1024_S1024x1024_S512x1024_1_0_0_1_n_n_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_dot_S512x1024_S1024x1024_S512x1024_1_0_0_1_n_n_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The rows-by-columns product into the zero accumulator, at row `r` and column `c`: the sum over
    the 1024 shared coordinates. -/
theorem matmul_plain_apply {φ₁ φ₂ : FTy} (lhs : FVec Ideal S512x1024 φ₁) (rhs : FVec Ideal S1024x1024 φ₂)
    (r : Fin 512) (c : Fin 1024) :
    matmul dot_S512x1024_S1024x1024_S512x1024_1_0_0_1_n_n none lhs rhs (constant S512x1024 .f32 0x00000000#32) (ix2 r c)
      = ∑ j : Fin 1024, lhs (ix2 r j) * rhs (ix2 j c) := by
  refine (Ideal.matmul_constant_zero_apply _ none lhs rhs (ix2 r c)).trans ?_
  rw [← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 r c) ((ValueIdx.contrEquiv1 dot_S512x1024_S1024x1024_S512x1024_1_0_0_1_n_n 1024 rfl rfl).symm k) = ix2 r k := funext fun a => Fin.ext (by
    match a with
    | ⟨0, _⟩ => exact lhs_dot_S512x1024_S1024x1024_S512x1024_1_0_0_1_n_n_0 _ _
    | ⟨1, _⟩ => exact (lhs_dot_S512x1024_S1024x1024_S512x1024_1_0_0_1_n_n_1 _ _).trans hk)
  have er : dot_S512x1024_S1024x1024_S512x1024_1_0_0_1_n_n.rhsIdx (ix2 r c) ((ValueIdx.contrEquiv1 dot_S512x1024_S1024x1024_S512x1024_1_0_0_1_n_n 1024 rfl rfl).symm k) = ix2 k c := funext fun a => Fin.ext (by
    match a with
    | ⟨0, _⟩ => exact (rhs_dot_S512x1024_S1024x1024_S512x1024_1_0_0_1_n_n_0 _ _).trans hk
    | ⟨1, _⟩ => exact rhs_dot_S512x1024_S1024x1024_S512x1024_1_0_0_1_n_n_1 _ _)
  rw [el, er]

theorem lhs_dot_S16x1x64_S16x512x64_S16x1x512_2_2_1_1_0_0_0 (i : S16x1x512.Idx) (q : dot_S16x1x64_S16x512x64_S16x1x512_2_2_1_1_0_0.contr.Idx) :
    (dot_S16x1x64_S16x512x64_S16x1x512_2_2_1_1_0_0.lhsIdx i q 0).val = (i 0).val := by
  unfold DotDims.lhsIdx
  rw [dif_pos (show (0 : Fin S16x1x64.rank) ∈ dot_S16x1x64_S16x512x64_S16x1x512_2_2_1_1_0_0.lhsBatch by decide)]
  rfl
theorem lhs_dot_S16x1x64_S16x512x64_S16x1x512_2_2_1_1_0_0_1 (i : S16x1x512.Idx) (q : dot_S16x1x64_S16x512x64_S16x1x512_2_2_1_1_0_0.contr.Idx) :
    (dot_S16x1x64_S16x512x64_S16x1x512_2_2_1_1_0_0.lhsIdx i q 1).val = (i 1).val := by
  unfold DotDims.lhsIdx
  rw [dif_neg (show ¬(1 : Fin S16x1x64.rank) ∈ dot_S16x1x64_S16x512x64_S16x1x512_2_2_1_1_0_0.lhsBatch by decide), dif_pos (show (1 : Fin S16x1x64.rank) ∈ dot_S16x1x64_S16x512x64_S16x1x512_2_2_1_1_0_0.lhsNonContracting by decide)]
  rfl
theorem lhs_dot_S16x1x64_S16x512x64_S16x1x512_2_2_1_1_0_0_2 (i : S16x1x512.Idx) (q : dot_S16x1x64_S16x512x64_S16x1x512_2_2_1_1_0_0.contr.Idx) :
    (dot_S16x1x64_S16x512x64_S16x1x512_2_2_1_1_0_0.lhsIdx i q 2).val = (q ⟨0, by decide⟩).val :=
  dot_S16x1x64_S16x512x64_S16x1x512_2_2_1_1_0_0.lhsIdx_val_of_single rfl i q
theorem rhs_dot_S16x1x64_S16x512x64_S16x1x512_2_2_1_1_0_0_0 (i : S16x1x512.Idx) (q : dot_S16x1x64_S16x512x64_S16x1x512_2_2_1_1_0_0.contr.Idx) :
    (dot_S16x1x64_S16x512x64_S16x1x512_2_2_1_1_0_0.rhsIdx i q 0).val = (i 0).val := by
  unfold DotDims.rhsIdx
  rw [dif_pos (show (0 : Fin S16x512x64.rank) ∈ dot_S16x1x64_S16x512x64_S16x1x512_2_2_1_1_0_0.rhsBatch by decide)]
  rfl
theorem rhs_dot_S16x1x64_S16x512x64_S16x1x512_2_2_1_1_0_0_1 (i : S16x1x512.Idx) (q : dot_S16x1x64_S16x512x64_S16x1x512_2_2_1_1_0_0.contr.Idx) :
    (dot_S16x1x64_S16x512x64_S16x1x512_2_2_1_1_0_0.rhsIdx i q 1).val = (i 2).val := by
  unfold DotDims.rhsIdx
  rw [dif_neg (show ¬(1 : Fin S16x512x64.rank) ∈ dot_S16x1x64_S16x512x64_S16x1x512_2_2_1_1_0_0.rhsBatch by decide), dif_pos (show (1 : Fin S16x512x64.rank) ∈ dot_S16x1x64_S16x512x64_S16x1x512_2_2_1_1_0_0.rhsNonContracting by decide)]
  rfl
theorem rhs_dot_S16x1x64_S16x512x64_S16x1x512_2_2_1_1_0_0_2 (i : S16x1x512.Idx) (q : dot_S16x1x64_S16x512x64_S16x1x512_2_2_1_1_0_0.contr.Idx) :
    (dot_S16x1x64_S16x512x64_S16x1x512_2_2_1_1_0_0.rhsIdx i q 2).val = (q ⟨0, by decide⟩).val :=
  dot_S16x1x64_S16x512x64_S16x1x512_2_2_1_1_0_0.rhsIdx_val_of_single rfl i q

/-- The per-head product of the query rows with the key rows (both contracted over their 64
    coordinates) into the zero accumulator, at head `h` and tile row `r`. -/
theorem matmul_qk_apply {φ₁ φ₂ : FTy} (lhs : FVec Ideal S16x1x64 φ₁) (rhs : FVec Ideal S16x512x64 φ₂)
    (h : Fin 16) (u : Fin 1) (r : Fin 512) :
    matmul dot_S16x1x64_S16x512x64_S16x1x512_2_2_1_1_0_0 none lhs rhs (constant S16x1x512 .f32 0x00000000#32) (ix3 h u r)
      = ∑ d : Fin 64, lhs (ix3 h u d) * rhs (ix3 h r d) := by
  refine (Ideal.matmul_constant_zero_apply _ none lhs rhs (ix3 h u r)).trans ?_
  rw [← Equiv.sum_comp (ValueIdx.contrEquiv1 dot_S16x1x64_S16x512x64_S16x1x512_2_2_1_1_0_0 64 rfl rfl).symm]
  refine Finset.sum_congr rfl fun k _ => ?_
  have hk := ValueIdx.contrEquiv1_symm_val dot_S16x1x64_S16x512x64_S16x1x512_2_2_1_1_0_0 64 rfl rfl k
  have el : dot_S16x1x64_S16x512x64_S16x1x512_2_2_1_1_0_0.lhsIdx (ix3 h u r) ((ValueIdx.contrEquiv1 dot_S16x1x64_S16x512x64_S16x1x512_2_2_1_1_0_0 64 rfl rfl).symm k) = ix3 h u k := funext fun a => Fin.ext (by
    match a with
    | ⟨0, _⟩ => exact lhs_dot_S16x1x64_S16x512x64_S16x1x512_2_2_1_1_0_0_0 _ _
    | ⟨1, _⟩ => exact lhs_dot_S16x1x64_S16x512x64_S16x1x512_2_2_1_1_0_0_1 _ _
    | ⟨2, _⟩ => exact (lhs_dot_S16x1x64_S16x512x64_S16x1x512_2_2_1_1_0_0_2 _ _).trans hk)
  have er : dot_S16x1x64_S16x512x64_S16x1x512_2_2_1_1_0_0.rhsIdx (ix3 h u r) ((ValueIdx.contrEquiv1 dot_S16x1x64_S16x512x64_S16x1x512_2_2_1_1_0_0 64 rfl rfl).symm k) = ix3 h r k := funext fun a => Fin.ext (by
    match a with
    | ⟨0, _⟩ => exact rhs_dot_S16x1x64_S16x512x64_S16x1x512_2_2_1_1_0_0_0 _ _
    | ⟨1, _⟩ => exact rhs_dot_S16x1x64_S16x512x64_S16x1x512_2_2_1_1_0_0_1 _ _
    | ⟨2, _⟩ => exact (rhs_dot_S16x1x64_S16x512x64_S16x1x512_2_2_1_1_0_0_2 _ _).trans hk)
  rw [el, er]

theorem lhs_dot_S16x1x512_S16x512x64_S16x1x64_2_1_1_2_0_0_0 (i : S16x1x64.Idx) (q : dot_S16x1x512_S16x512x64_S16x1x64_2_1_1_2_0_0.contr.Idx) :
    (dot_S16x1x512_S16x512x64_S16x1x64_2_1_1_2_0_0.lhsIdx i q 0).val = (i 0).val := by
  unfold DotDims.lhsIdx
  rw [dif_pos (show (0 : Fin S16x1x512.rank) ∈ dot_S16x1x512_S16x512x64_S16x1x64_2_1_1_2_0_0.lhsBatch by decide)]
  rfl
theorem lhs_dot_S16x1x512_S16x512x64_S16x1x64_2_1_1_2_0_0_1 (i : S16x1x64.Idx) (q : dot_S16x1x512_S16x512x64_S16x1x64_2_1_1_2_0_0.contr.Idx) :
    (dot_S16x1x512_S16x512x64_S16x1x64_2_1_1_2_0_0.lhsIdx i q 1).val = (i 1).val := by
  unfold DotDims.lhsIdx
  rw [dif_neg (show ¬(1 : Fin S16x1x512.rank) ∈ dot_S16x1x512_S16x512x64_S16x1x64_2_1_1_2_0_0.lhsBatch by decide), dif_pos (show (1 : Fin S16x1x512.rank) ∈ dot_S16x1x512_S16x512x64_S16x1x64_2_1_1_2_0_0.lhsNonContracting by decide)]
  rfl
theorem lhs_dot_S16x1x512_S16x512x64_S16x1x64_2_1_1_2_0_0_2 (i : S16x1x64.Idx) (q : dot_S16x1x512_S16x512x64_S16x1x64_2_1_1_2_0_0.contr.Idx) :
    (dot_S16x1x512_S16x512x64_S16x1x64_2_1_1_2_0_0.lhsIdx i q 2).val = (q ⟨0, by decide⟩).val :=
  dot_S16x1x512_S16x512x64_S16x1x64_2_1_1_2_0_0.lhsIdx_val_of_single rfl i q
theorem rhs_dot_S16x1x512_S16x512x64_S16x1x64_2_1_1_2_0_0_0 (i : S16x1x64.Idx) (q : dot_S16x1x512_S16x512x64_S16x1x64_2_1_1_2_0_0.contr.Idx) :
    (dot_S16x1x512_S16x512x64_S16x1x64_2_1_1_2_0_0.rhsIdx i q 0).val = (i 0).val := by
  unfold DotDims.rhsIdx
  rw [dif_pos (show (0 : Fin S16x512x64.rank) ∈ dot_S16x1x512_S16x512x64_S16x1x64_2_1_1_2_0_0.rhsBatch by decide)]
  rfl
theorem rhs_dot_S16x1x512_S16x512x64_S16x1x64_2_1_1_2_0_0_1 (i : S16x1x64.Idx) (q : dot_S16x1x512_S16x512x64_S16x1x64_2_1_1_2_0_0.contr.Idx) :
    (dot_S16x1x512_S16x512x64_S16x1x64_2_1_1_2_0_0.rhsIdx i q 1).val = (q ⟨0, by decide⟩).val :=
  dot_S16x1x512_S16x512x64_S16x1x64_2_1_1_2_0_0.rhsIdx_val_of_single rfl i q
theorem rhs_dot_S16x1x512_S16x512x64_S16x1x64_2_1_1_2_0_0_2 (i : S16x1x64.Idx) (q : dot_S16x1x512_S16x512x64_S16x1x64_2_1_1_2_0_0.contr.Idx) :
    (dot_S16x1x512_S16x512x64_S16x1x64_2_1_1_2_0_0.rhsIdx i q 2).val = (i 2).val := by
  unfold DotDims.rhsIdx
  rw [dif_neg (show ¬(2 : Fin S16x512x64.rank) ∈ dot_S16x1x512_S16x512x64_S16x1x64_2_1_1_2_0_0.rhsBatch by decide), dif_pos (show (2 : Fin S16x512x64.rank) ∈ dot_S16x1x512_S16x512x64_S16x1x64_2_1_1_2_0_0.rhsNonContracting by decide)]
  rfl

/-- The per-head product of the weight rows with the value rows (contracted over the tile's 512
    rows) into the zero accumulator, at head `h` and coordinate `d`. -/
theorem matmul_pv_apply {φ₁ φ₂ : FTy} (lhs : FVec Ideal S16x1x512 φ₁) (rhs : FVec Ideal S16x512x64 φ₂)
    (h : Fin 16) (u : Fin 1) (d : Fin 64) :
    matmul dot_S16x1x512_S16x512x64_S16x1x64_2_1_1_2_0_0 none lhs rhs (constant S16x1x64 .f32 0x00000000#32) (ix3 h u d)
      = ∑ r : Fin 512, lhs (ix3 h u r) * rhs (ix3 h r d) := by
  refine (Ideal.matmul_constant_zero_apply _ none lhs rhs (ix3 h u d)).trans ?_
  rw [← Equiv.sum_comp (ValueIdx.contrEquiv1 dot_S16x1x512_S16x512x64_S16x1x64_2_1_1_2_0_0 512 rfl rfl).symm]
  refine Finset.sum_congr rfl fun k _ => ?_
  have hk := ValueIdx.contrEquiv1_symm_val dot_S16x1x512_S16x512x64_S16x1x64_2_1_1_2_0_0 512 rfl rfl k
  have el : dot_S16x1x512_S16x512x64_S16x1x64_2_1_1_2_0_0.lhsIdx (ix3 h u d) ((ValueIdx.contrEquiv1 dot_S16x1x512_S16x512x64_S16x1x64_2_1_1_2_0_0 512 rfl rfl).symm k) = ix3 h u k := funext fun a => Fin.ext (by
    match a with
    | ⟨0, _⟩ => exact lhs_dot_S16x1x512_S16x512x64_S16x1x64_2_1_1_2_0_0_0 _ _
    | ⟨1, _⟩ => exact lhs_dot_S16x1x512_S16x512x64_S16x1x64_2_1_1_2_0_0_1 _ _
    | ⟨2, _⟩ => exact (lhs_dot_S16x1x512_S16x512x64_S16x1x64_2_1_1_2_0_0_2 _ _).trans hk)
  have er : dot_S16x1x512_S16x512x64_S16x1x64_2_1_1_2_0_0.rhsIdx (ix3 h u d) ((ValueIdx.contrEquiv1 dot_S16x1x512_S16x512x64_S16x1x64_2_1_1_2_0_0 512 rfl rfl).symm k) = ix3 h k d := funext fun a => Fin.ext (by
    match a with
    | ⟨0, _⟩ => exact rhs_dot_S16x1x512_S16x512x64_S16x1x64_2_1_1_2_0_0_0 _ _
    | ⟨1, _⟩ => exact (rhs_dot_S16x1x512_S16x512x64_S16x1x64_2_1_1_2_0_0_1 _ _).trans hk
    | ⟨2, _⟩ => exact rhs_dot_S16x1x512_S16x512x64_S16x1x64_2_1_1_2_0_0_2 _ _)
  rw [el, er]

/-! ## The projection, regrouped into heads -/

/-- The projection block (rows times the transposed weight block, plus the bias row) with its 1024
    columns regrouped into 16 heads of 64 and the head axis moved in front: at head `h`, tile row `r`
    and coordinate `d` it is column `64 h + d` of row `r`'s projection.  (Position `(r, h, d)` of a
    512 × 16 × 64 array and position `(r, 64 h + d)` of a 512 × 1024 array are the same row-major
    position.)  Used for the keys and for the values. -/
theorem proj_apply (x0 : FVec Ideal S512x1024 .f32) (w : FVec Ideal S1024x1024 .bf16) (b : FVec Ideal S1x1024 .f32)
    (h : Fin 16) (r : Fin 512) (d : Fin 64) :
    (transpose S16x512x64 [1, 0, 2]
      (truncf .bf16 (shapeCast S512x16x64
        (addf (matmul dot_S512x1024_S1024x1024_S512x1024_1_0_0_1_n_n none (k0_pay3 (F := Ideal) x0)
                 (shapeCast S1024x1024 w shapeCasts_S1024x1024_S1024x1024 : FVec Ideal S1024x1024 .bf16) (constant S512x1024 .f32 0x00000000#32))
              (broadcastTo S512x1024 (shapeCast S1x1024 b shapeCasts_S1x1024_S1x1024 : FVec Ideal S1x1024 .f32) broadcasts_S1x1024_S512x1024 : FVec Ideal S512x1024 .f32) : FVec Ideal S512x1024 .f32)
        shapeCasts_S512x1024_S512x16x64 : FVec Ideal S512x16x64 .f32) bitsLt_bf16_f32 : FVec Ideal S512x16x64 .bf16)
      transposes_S512x16x64_p1_0_2_S16x512x64 : FVec Ideal S16x512x64 .bf16) (ix3 h r d)
    = (∑ j : Fin 1024, x0 (ix2 r j) * w (ix2 j (Attention.col h d))) + b (ix2 (0 : Fin 1) (Attention.col h d)) := by
  refine (transpose_apply [1, 0, 2] _ transposes_S512x16x64_p1_0_2_S16x512x64 (ix3 h r d) (ix3 r h d) (fun a => match a with
    | ⟨0, _⟩ => rfl
    | ⟨1, _⟩ => rfl
    | ⟨2, _⟩ => rfl)).trans ?_
  refine (truncf_apply _ bitsLt_bf16_f32 (ix3 r h d)).trans ?_
  refine (shapeCast_apply _ shapeCasts_S512x1024_S512x16x64 (ix3 r h d) (ix2 r (Attention.col h d)) (by
    rw [Shape.rowMajor_val_two, Shape.rowMajor_val_three]
    show r.val * 1024 + (64 * h.val + d.val) = (r.val * 16 + h.val) * 64 + d.val
    omega)).trans ?_
  rw [addf_apply, matmul_plain_apply, shapeCast_self, shapeCast_self, broadcastTo_1b_ab_apply]
  rfl

/-! ## The scores -/

/-- The scaled scores at head `h` and tile row `r`: the query's head row against the key
    projection's head columns, summed over the 64 coordinates, times 1/8. -/
theorem pay4_apply (x0 : Vec Ideal S512x1024 .f32) (x1 : Vec Ideal S1024x1024 .bf16) (x3 : Vec Ideal S1x1024 .f32)
    (x5 : Vec Ideal S16x1x64 .f32) (h : Fin 16) (r : Fin 512) :
    k0_pay4 (F := Ideal) x0 x1 x3 x5 (ix3 h (0 : Fin 1) r) = tscore x0 x1 x3 x5 h r := by
  simp only [k0_pay4]
  rw [mulf_apply, broadcast_apply, matmul_qk_apply]
  unfold tscore
  refine congrArg₂ (· * ·) (Finset.sum_congr rfl fun d _ => ?_) rfl
  rw [truncf_apply, shapeCast_self, proj_apply]

/-! ## The tile's maximum, exponentials, sum and weighted sum -/

/-- The reduced index with the row coordinate put back on the last axis. -/
theorem lift_eq (h : Fin 16) (u : Fin 1) (r : Fin 512) :
    reduces_S16x1x512_S16x1.lift (ix2 h u) r = ix3 h u r :=
  funext fun a => Fin.ext (by
    match a with
    | ⟨0, _⟩ => rfl
    | ⟨1, _⟩ => rfl
    | ⟨2, _⟩ => rfl)

/-- The bit pattern the maximum starts from is `-∞`. -/
theorem negInf_eq : (Ideal.ofBits .f32 0xFF800000#32) = ⊥ := by simp [Ideal.ofBits, Ideal.ieee]

/-- The exponential of a vector is taken entry by entry. -/
theorem exp_apply {s : Shape} {φ : FTy} (v : FVec Ideal s φ) (i : s.Idx) : exp v i = Ideal.exp (v i) := rfl

/-- A 16 × 1 array regrouped as 16 × 1 × 1. -/
theorem cast_a1_a11_apply {α : Type} (v : S16x1.Idx → α) (h : Fin 16) :
    shapeCast S16x1x1 v shapeCasts_S16x1_S16x1x1 (ix3 h (0 : Fin 1) (0 : Fin 1)) = v (ix2 h (0 : Fin 1)) :=
  shapeCast_apply _ shapeCasts_S16x1_S16x1x1 (ix3 h (0 : Fin 1) (0 : Fin 1)) (ix2 h (0 : Fin 1)) (by
    rw [Shape.rowMajor_val_two, Shape.rowMajor_val_three]
    show h.val * 1 + 0 = (h.val * 1 + 0) * 1 + 0
    omega)

/-- Head `h`'s maximum of the tile's scores. -/
theorem pay5_apply (x0 : Vec Ideal S512x1024 .f32) (x1 : Vec Ideal S1024x1024 .bf16) (x3 : Vec Ideal S1x1024 .f32)
    (x5 : Vec Ideal S16x1x64 .f32) (h : Fin 16) :
    k0_pay5 (F := Ideal) x0 x1 x3 x5 (ix3 h (0 : Fin 1) (0 : Fin 1)) = Attention.blockMax (tscore x0 x1 x3 x5 h) := by
  simp only [k0_pay5]
  refine (cast_a1_a11_apply _ h).trans ?_
  refine (Ideal.multiReduction_maximumf_single _ _ reduces_S16x1x512_S16x1 _ _ (ix2 h (0 : Fin 1))).trans ?_
  unfold Attention.blockMax
  have hf : (k0_pay4 (F := Ideal) x0 x1 x3 x5 ∘ reduces_S16x1x512_S16x1.lift (ix2 h (0 : Fin 1))) = tscore x0 x1 x3 x5 h :=
    funext fun r => (congrArg (k0_pay4 (F := Ideal) x0 x1 x3 x5) (lift_eq h 0 r)).trans (pay4_apply x0 x1 x3 x5 h r)
  rw [hf]
  exact congrArg (fun z => Finset.fold max z (tscore x0 x1 x3 x5 h) Finset.univ) negInf_eq

/-- The exponentials of the scores relative to the head's maximum. -/
theorem pay6_apply (x0 : Vec Ideal S512x1024 .f32) (x1 : Vec Ideal S1024x1024 .bf16) (x3 : Vec Ideal S1x1024 .f32)
    (x5 : Vec Ideal S16x1x64 .f32) (h : Fin 16) (r : Fin 512) :
    k0_pay6 (F := Ideal) x0 x1 x3 x5 (ix3 h (0 : Fin 1) r)
      = Ideal.exp (tscore x0 x1 x3 x5 h r - Attention.blockMax (tscore x0 x1 x3 x5 h)) := by
  simp only [k0_pay6]
  rw [exp_apply, subf_apply, pay4_apply]
  refine congrArg (fun z => Ideal.exp (tscore x0 x1 x3 x5 h r - z)) ?_
  refine (broadcastTo_apply _ broadcasts_S16x1x1_S16x1x512 (ix3 h (0 : Fin 1) r) (ix3 h (0 : Fin 1) (0 : Fin 1)) (fun a => by
    match a with
    | ⟨0, _⟩ => rfl
    | ⟨1, _⟩ => rfl
    | ⟨2, _⟩ => rfl)).trans ?_
  exact pay5_apply x0 x1 x3 x5 h

/-! ## The three stored values -/

/-- The stored maximum of head `h` is the maximum of the tile's scores. -/
theorem pay_max (x0 : Vec Ideal S512x1024 .f32) (x1 : Vec Ideal S1024x1024 .bf16) (x3 : Vec Ideal S1x1024 .f32)
    (x5 : Vec Ideal S16x1x64 .f32) (h : Fin 16) :
    k0_pay9 (F := Ideal) x0 x1 x3 x5 (ix4 (0 : Fin 1) h (0 : Fin 1) (0 : Fin 1)) = Attention.blockMax (tscore x0 x1 x3 x5 h) := by
  simp only [k0_pay9]
  refine (shapeCast_abc_1abc_apply _ shapeCasts_S16x1x1_S1x16x1x1 (0 : Fin 1) h (0 : Fin 1) (0 : Fin 1)).trans ?_
  exact pay5_apply x0 x1 x3 x5 h

/-- The stored sum of head `h` is the sum over the tile's rows of the exponentials of the scores
    relative to that maximum. -/
theorem pay_sum (x0 : Vec Ideal S512x1024 .f32) (x1 : Vec Ideal S1024x1024 .bf16) (x3 : Vec Ideal S1x1024 .f32)
    (x5 : Vec Ideal S16x1x64 .f32) (h : Fin 16) :
    k0_pay1 (F := Ideal) (k0_pay7 (F := Ideal) x0 x1 x3 x5) (ix4 (0 : Fin 1) h (0 : Fin 1) (0 : Fin 1)) = Attention.blockSum (tscore x0 x1 x3 x5 h) := by
  simp only [k0_pay1, k0_pay7]
  refine (shapeCast_abc_1abc_apply _ shapeCasts_S16x1x1_S1x16x1x1 (0 : Fin 1) h (0 : Fin 1) (0 : Fin 1)).trans ?_
  refine (cast_a1_a11_apply _ h).trans ?_
  refine (Ideal.multiReduction_add_single _ _ reduces_S16x1x512_S16x1 _ _ (ix2 h (0 : Fin 1))).trans ?_
  unfold Attention.blockSum
  refine Finset.sum_congr rfl fun r _ => ?_
  exact (congrArg (k0_pay6 (F := Ideal) x0 x1 x3 x5) (lift_eq h 0 r)).trans (pay6_apply x0 x1 x3 x5 h r)

/-- Coordinate `d` of the stored weighted sum of head `h`: the sum over the tile's rows of those
    exponentials times coordinate `d` of the rows' values. -/
theorem pay_acc (x0 : Vec Ideal S512x1024 .f32) (x1 : Vec Ideal S1024x1024 .bf16) (x2 : Vec Ideal S1024x1024 .bf16)
    (x3 : Vec Ideal S1x1024 .f32) (x4 : Vec Ideal S1x1024 .f32) (x5 : Vec Ideal S16x1x64 .f32) (h : Fin 16) (d : Fin 64) :
    k0_pay2 (F := Ideal) (k0_pay8 (F := Ideal) x0 x1 x3 x2 x4 x5) (ix4 (0 : Fin 1) h (0 : Fin 1) d)
      = Attention.blockAcc (tscore x0 x1 x3 x5 h) (tvalue x0 x2 x4 h d) := by
  simp only [k0_pay2, k0_pay8]
  refine (shapeCast_abc_1abc_apply _ shapeCasts_S16x1x64_S1x16x1x64 (0 : Fin 1) h (0 : Fin 1) d).trans ?_
  rw [matmul_pv_apply]
  unfold Attention.blockAcc tvalue
  refine Finset.sum_congr rfl fun r _ => ?_
  rw [truncf_apply, pay6_apply, proj_apply]

end Cert.TileBody

end
-- ==== Proof.KernelInputs.lean ====
/-
  What the kernel finds in the arrays the host operations prepared before it runs, read at an index:
  the key and value projection weights are the transposed row blocks [1024, 2048) and [2048, 3072) of the
  stacked weight, the key and value biases are the matching thirds of the stacked bias, and the query
  heads are the query projection of input row 0, cut into 16 heads of 64 coordinates.
-/
import proofs.«157563_j35897336660262_2_alg».proof.Proof.Gen.KernelIdeal.Frame
import proofs.«157563_j35897336660262_2_alg».proof.Proof.Attention
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelInputs

open Cert.KernelIdeal Cert.KernelIdeal.Gen Idealize.ShloMosaic Idealize.ShloMosaic.TcCoe Idealize.SL.Sem
  Idealize.ShloMosaic.ValueIdx Idealize.ShloMosaic.StableHlo

variable (m : (ℓ : Loc nD τ sig) → Buf (Elt Ideal) ℓ)

/-! ## The projection weights -/

/-- The key weight array as the host operations' term: rows [1024, 2048) of the stacked weight, transposed. -/
theorem V_wk_eq (c : Dev nD) : @Eq (S1024x1024.Idx → EReal) (V m c main_v14)
    (truncf (F := Ideal) .bf16 (transpose S1024x1024 [1, 0] (extractStridedSlice S1024x1024 ![1024, 0] (m ((c : Thread nD τ).loc main_arg1)) slices_S3072x1024_S1024x1024_1024_0) transposes_S1024x1024_S1024x1024_1_0) bitsLt_bf16_f32) := by
  show StableHlo.after hostOps0 (fun b => m (c, b)) (Proc.devRef .tc main_v14) = _
  after_results <;> rfl

/-- Entry (j, e) of the key weight array is entry (1024 + e, j) of the stacked weight. -/
theorem V_wk (c : Dev nD) (j e : Fin 1024) :
    (V m c main_v14 : S1024x1024.Idx → EReal) (ix2 j e)
      = m ((c : Thread nD τ).loc main_arg1) (ix2 (Attention.wrow 1024 (by norm_num) e) j) := by
  refine (congrFun (V_wk_eq m c) (ix2 j e)).trans ?_
  rw [truncf_apply]
  refine (transpose_ix2_apply _ _ j e).trans ?_
  exact slice2_axis0_apply 1024 _ _ e j (Attention.wrow 1024 (by norm_num) e) rfl

/-- The value weight array as the host operations' term: rows [2048, 3072) of the stacked weight, transposed. -/
theorem V_wv_eq (c : Dev nD) : @Eq (S1024x1024.Idx → EReal) (V m c main_v16)
    (truncf (F := Ideal) .bf16 (transpose S1024x1024 [1, 0] (extractStridedSlice S1024x1024 ![2048, 0] (m ((c : Thread nD τ).loc main_arg1)) slices_S3072x1024_S1024x1024_2048_0) transposes_S1024x1024_S1024x1024_1_0) bitsLt_bf16_f32) := by
  show StableHlo.after hostOps0 (fun b => m (c, b)) (Proc.devRef .tc main_v16) = _
  after_results <;> rfl

/-- Entry (j, e) of the value weight array is entry (2048 + e, j) of the stacked weight. -/
theorem V_wv (c : Dev nD) (j e : Fin 1024) :
    (V m c main_v16 : S1024x1024.Idx → EReal) (ix2 j e)
      = m ((c : Thread nD τ).loc main_arg1) (ix2 (Attention.wrow 2048 (by norm_num) e) j) := by
  refine (congrFun (V_wv_eq m c) (ix2 j e)).trans ?_
  rw [truncf_apply]
  refine (transpose_ix2_apply _ _ j e).trans ?_
  exact slice2_axis0_apply 2048 _ _ e j (Attention.wrow 2048 (by norm_num) e) rfl

/-! ## The biases -/

/-- The key bias array as the host operations' term: entries [1024, 2048) of the stacked bias, as one row. -/
theorem V_bk_eq (c : Dev nD) : @Eq (S1x1024.Idx → EReal) (V m c main_v17)
    (shapeCast S1x1024 (extractStridedSlice S1024 ![1024] (m ((c : Thread nD τ).loc main_arg2)) slices_S3072_S1024_1024) shapeCasts_S1024_S1x1024) := by
  show StableHlo.after hostOps0 (fun b => m (c, b)) (Proc.devRef .tc main_v17) = _
  after_results <;> rfl

/-- Entry (0, e) of the key bias row is entry 1024 + e of the stacked bias. -/
theorem V_bk (c : Dev nD) (e : Fin 1024) :
    (V m c main_v17 : S1x1024.Idx → EReal) (ix2 (0 : Fin 1) e)
      = m ((c : Thread nD τ).loc main_arg2) (ix1 (Attention.wrow 1024 (by norm_num) e)) := by
  refine (congrFun (V_bk_eq m c) (ix2 (0 : Fin 1) e)).trans ?_
  refine (shapeCast_a_1a_apply _ _ (0 : Fin 1) e).trans ?_
  exact extractStridedSlice_apply ![1024] _ slices_S3072_S1024_1024 (ix1 e) (ix1 (Attention.wrow 1024 (by norm_num) e))
    (fun a => match a with | ⟨0, _⟩ => rfl)

/-- The value bias array as the host operations' term: entries [2048, 3072) of the stacked bias, as one row. -/
theorem V_bv_eq (c : Dev nD) : @Eq (S1x1024.Idx → EReal) (V m c main_v18)
    (shapeCast S1x1024 (extractStridedSlice S1024 ![2048] (m ((c : Thread nD τ).loc main_arg2)) slices_S3072_S1024_2048) shapeCasts_S1024_S1x1024) := by
  show StableHlo.after hostOps0 (fun b => m (c, b)) (Proc.devRef .tc main_v18) = _
  after_results <;> rfl

/-- Entry (0, e) of the value bias row is entry 2048 + e of the stacked bias. -/
theorem V_bv (c : Dev nD) (e : Fin 1024) :
    (V m c main_v18 : S1x1024.Idx → EReal) (ix2 (0 : Fin 1) e)
      = m ((c : Thread nD τ).loc main_arg2) (ix1 (Attention.wrow 2048 (by norm_num) e)) := by
  refine (congrFun (V_bv_eq m c) (ix2 (0 : Fin 1) e)).trans ?_
  refine (shapeCast_a_1a_apply _ _ (0 : Fin 1) e).trans ?_
  exact extractStridedSlice_apply ![2048] _ slices_S3072_S1024_2048 (ix1 e) (ix1 (Attention.wrow 2048 (by norm_num) e))
    (fun a => match a with | ⟨0, _⟩ => rfl)

/-! ## The query heads -/

/-- In the query projection's product, the left operand's row is the output's row … -/
theorem q_lhs_0 (i : S1x1024.Idx) (q : dot_S1x1024_S1024x1024_S1x1024_1_0_0_1_n_n.contr.Idx) :
    (dot_S1x1024_S1024x1024_S1x1024_1_0_0_1_n_n.lhsIdx i q 0).val = (i 0).val := by
  unfold DotDims.lhsIdx
  rw [dif_neg (show ¬(0 : Fin S1x1024.rank) ∈ dot_S1x1024_S1024x1024_S1x1024_1_0_0_1_n_n.lhsBatch by decide),
    dif_pos (show (0 : Fin S1x1024.rank) ∈ dot_S1x1024_S1024x1024_S1x1024_1_0_0_1_n_n.lhsNonContracting by decide)]
  rfl
/-- … and its column the contracted index; -/
theorem q_lhs_1 (i : S1x1024.Idx) (q : dot_S1x1024_S1024x1024_S1x1024_1_0_0_1_n_n.contr.Idx) :
    (dot_S1x1024_S1024x1024_S1x1024_1_0_0_1_n_n.lhsIdx i q 1).val = (q ⟨0, by decide⟩).val :=
  dot_S1x1024_S1024x1024_S1x1024_1_0_0_1_n_n.lhsIdx_val_of_single rfl i q
/-- the right operand's row is the contracted index … -/
theorem q_rhs_0 (i : S1x1024.Idx) (q : dot_S1x1024_S1024x1024_S1x1024_1_0_0_1_n_n.contr.Idx) :
    (dot_S1x1024_S1024x1024_S1x1024_1_0_0_1_n_n.rhsIdx i q 0).val = (q ⟨0, by decide⟩).val :=
  dot_S1x1024_S1024x1024_S1x1024_1_0_0_1_n_n.rhsIdx_val_of_single rfl i q
/-- … and its column the output's column. -/
theorem q_rhs_1 (i : S1x1024.Idx) (q : dot_S1x1024_S1024x1024_S1x1024_1_0_0_1_n_n.contr.Idx) :
    (dot_S1x1024_S1024x1024_S1x1024_1_0_0_1_n_n.rhsIdx i q 1).val = (i 1).val := by
  unfold DotDims.rhsIdx
  rw [dif_neg (show ¬(1 : Fin S1024x1024.rank) ∈ dot_S1x1024_S1024x1024_S1x1024_1_0_0_1_n_n.rhsBatch by decide),
    dif_pos (show (1 : Fin S1024x1024.rank) ∈ dot_S1x1024_S1024x1024_S1x1024_1_0_0_1_n_n.rhsNonContracting by decide)]
  rfl

/-- The query array as the host operations' term: input row 0 times the transposed rows [0, 1024) of the stacked
    weight, plus the first third of the stacked bias, cut into 16 heads of 64 and the head axis brought to the front. -/
theorem V_q_eq (c : Dev nD) : @Eq (S16x1x64.Idx → EReal) (V m c main_v12)
    (transpose S16x1x64 [1, 0, 2]
      (shapeCast S1x16x64
        (addf (F := Ideal)
          (Host.dotGeneral (F := Ideal) (φ₁ := .f32) (φ₂ := .f32) dot_S1x1024_S1024x1024_S1x1024_1_0_0_1_n_n none
            (extractStridedSlice S1x1024 ![0, 0] (m ((c : Thread nD τ).loc main_arg0)) slices_S8192x1024_S1x1024_0_0)
            (transpose S1024x1024 [1, 0]
              (extractStridedSlice S1024x1024 ![0, 0] (m ((c : Thread nD τ).loc main_arg1)) slices_S3072x1024_S1024x1024_0_0)
              transposes_S1024x1024_S1024x1024_1_0))
          (broadcastInDim S1x1024 ![1] bcast_S1024_S1x1024_1
            (extractStridedSlice S1024 ![0] (m ((c : Thread nD τ).loc main_arg2)) slices_S3072_S1024_0)))
        shapeCasts_S1x1024_S1x16x64)
      transposes_S1x16x64_S16x1x64_1_0_2) := by
  show StableHlo.after hostOps0 (fun b => m (c, b)) (Proc.devRef .tc main_v12) = _
  after_results <;> rfl

/-- Coordinate d of query head h is the query projection of input row 0 at column 64·h + d. -/
theorem V_q (c : Dev nD) (h : Fin 16) (d : Fin 64) :
    (V m c main_v12 : S16x1x64.Idx → EReal) (ix3 h (0 : Fin 1) d)
      = Attention.proj 0 (by norm_num) (m ((c : Thread nD τ).loc main_arg0)) (m ((c : Thread nD τ).loc main_arg1))
          (m ((c : Thread nD τ).loc main_arg2)) (0 : Fin 8192) (Attention.col h d) := by
  refine (congrFun (V_q_eq m c) (ix3 h (0 : Fin 1) d)).trans ?_
  -- the head axis back in second place
  refine (transpose_apply [1, 0, 2] _ transposes_S1x16x64_S16x1x64_1_0_2 (ix3 h (0 : Fin 1) d) (ix3 (0 : Fin 1) h d)
    (fun b => match b with | ⟨0, _⟩ => rfl | ⟨1, _⟩ => rfl | ⟨2, _⟩ => rfl)).trans ?_
  -- (0, h, d) of 1×16×64 and (0, 64·h + d) of 1×1024 are the same row-major position
  refine (shapeCast_apply _ shapeCasts_S1x1024_S1x16x64 (ix3 (0 : Fin 1) h d) (ix2 (0 : Fin 1) (Attention.col h d)) (by
    rw [Shape.rowMajor_val_two, Shape.rowMajor_val_three]
    show 0 * 1024 + (64 * h.val + d.val) = (0 * 16 + h.val) * 64 + d.val
    omega)).trans ?_
  refine (addf_apply _ _ _).trans ?_
  unfold Attention.proj
  refine congrArg₂ (· + ·) ?_ ?_
  · -- the product: a sum over the 1024 input features
    simp only [Host.dotGeneral]
    rw [Ideal.dotGeneral_apply,
      ← Equiv.sum_comp (contrEquiv1 dot_S1x1024_S1024x1024_S1x1024_1_0_0_1_n_n 1024 rfl rfl).symm]
    refine Finset.sum_congr rfl fun k _ => ?_
    have hk := contrEquiv1_symm_val dot_S1x1024_S1024x1024_S1x1024_1_0_0_1_n_n 1024 rfl rfl k
    have el : dot_S1x1024_S1024x1024_S1x1024_1_0_0_1_n_n.lhsIdx (ix2 (0 : Fin 1) (Attention.col h d))
        ((contrEquiv1 dot_S1x1024_S1024x1024_S1x1024_1_0_0_1_n_n 1024 rfl rfl).symm k) = ix2 (0 : Fin 1) k :=
      funext fun a => Fin.ext (by
        match a with
        | ⟨0, _⟩ => exact q_lhs_0 _ _
        | ⟨1, _⟩ => exact (q_lhs_1 _ _).trans hk)
    have er : dot_S1x1024_S1024x1024_S1x1024_1_0_0_1_n_n.rhsIdx (ix2 (0 : Fin 1) (Attention.col h d))
        ((contrEquiv1 dot_S1x1024_S1024x1024_S1x1024_1_0_0_1_n_n 1024 rfl rfl).symm k) = ix2 k (Attention.col h d) :=
      funext fun a => Fin.ext (by
        match a with
        | ⟨0, _⟩ => exact (q_rhs_0 _ _).trans hk
        | ⟨1, _⟩ => exact q_rhs_1 _ _)
    rw [el, er]
    refine congrArg₂ (· * ·) ?_ ?_
    · exact slice2_axis0_apply 0 _ _ (0 : Fin 1) k (0 : Fin 8192) rfl
    · refine (transpose_ix2_apply _ _ k (Attention.col h d)).trans ?_
      exact slice2_axis0_apply 0 _ _ (Attention.col h d) k (Attention.wrow 0 (by norm_num) (Attention.col h d)) rfl
  · -- the bias: the row vector's entry, from the first third of the stacked bias
    refine (broadcastInDim_apply _ bcast_S1024_S1x1024_1 _ (ix2 (0 : Fin 1) (Attention.col h d)) (ix1 (Attention.col h d))
      (fun a => match a with
        | ⟨0, _⟩ => by
          show (Attention.col h d).val = if (1024 : Nat) = 1 then 0 else (Attention.col h d).val
          rw [if_neg (by decide)])).trans ?_
    exact extractStridedSlice_apply ![0] _ slices_S3072_S1024_0 (ix1 (Attention.col h d))
      (ix1 (Attention.wrow 0 (by norm_num) (Attention.col h d))) (fun a => match a with | ⟨0, _⟩ => rfl)

end Cert.KernelInputs

end
-- ==== Proof.KernelArrays.lean ====
/-
  What the kernel's region leaves in its three result arrays, and the program's result.

  The grid has 16 points; point t stages rows 512·t … 512·t + 511 of x (the tile), the whole transposed key and value
  weights, the two bias rows and the query heads, and writes back row t of each result array.  The body's stored
  values, read at an index, are the tile's maximum, sum of exponentials and weighted values of the tile's scores and
  values (the body's arithmetic); the blocks it reads are rows of the argument arrays, so the tile's scores are the
  scores of the keys 512·t + r.  The 16 row blocks tile each result array, so each array ends as one function of the
  argument arrays (G6, G7, G8).  The host lines after the region then combine the tiles and project the output.
-/
import proofs.«157563_j35897336660262_2_alg».proof.Proof.Gen.KernelIdeal.Frame
import proofs.«157563_j35897336660262_2_alg».proof.Proof.Attention
import proofs.«157563_j35897336660262_2_alg».proof.Proof.CombineTail
import proofs.«157563_j35897336660262_2_alg».proof.Proof.TileBody
import proofs.«157563_j35897336660262_2_alg».proof.Proof.KernelInputs
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelArrays

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- A grid point as a tile number. -/
def tile (t : Fin cfg0.N) : Fin 16 := ⟨t.val, by have h : cfg0.N = 16 := N_0; have := t.isLt; omega⟩

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps over the grid: the x tile and the three results move with the grid point along their
    leading axis; every other window stays at block 0. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 4) = t.val ∧ win0_6.index t (1 : Fin 4) = 0 ∧ win0_6.index t (2 : Fin 4) = 0 ∧ win0_6.index t (3 : Fin 4) = 0)
    ∧ (win0_7.index t (0 : Fin 4) = t.val ∧ win0_7.index t (1 : Fin 4) = 0 ∧ win0_7.index t (2 : Fin 4) = 0 ∧ win0_7.index t (3 : Fin 4) = 0)
    ∧ (win0_8.index t (0 : Fin 4) = t.val ∧ win0_8.index t (1 : Fin 4) = 0 ∧ win0_8.index t (2 : Fin 4) = 0 ∧ win0_8.index t (3 : Fin 4) = 0) :=
  (by decide +kernel : ∀ t : Fin grid0.N, _)

/-! ## The input blocks at a grid point -/

/-- Row `r` of the x tile at point `t` is row `512·t + r` of x. -/
theorem blk0 (c : Dev nD) (t : Fin cfg0.N) (r : Fin 512) (j : Fin 1024) :
    (iblk m c 0 t : Vec Ideal S512x1024 .f32) (ix2 r j)
      = (m ((c : Thread nD τ).loc main_arg0) : S8192x1024.Idx → EReal) (ix2 (Attention.key (tile t) r) j) := by
  refine Eq.trans ?_ (congrFun (V_main_arg0 m c) _)
  unfold iblk
  rw [View.read_apply]
  show V m c main_arg0 _ = V m c main_arg0 _
  refine congrArg (V m c main_arg0) (funext fun a => Fin.ext ?_)
  obtain ⟨⟨e0, e1⟩, -⟩ := idx_facts t
  match a with
  | ⟨0, _⟩ => show win0_0.index t (0 : Fin 2) * 512 + 1 * r.val = 512 * t.val + r.val; omega
  | ⟨1, _⟩ => show win0_0.index t (1 : Fin 2) * 1024 + 1 * j.val = j.val; omega

/-- The other input windows hold their whole arrays at every point. -/
theorem blk1 (c : Dev nD) (t : Fin cfg0.N) (y : S1024x1024.Idx) :
    (iblk m c 1 t : Vec Ideal S1024x1024 .bf16) y = (V m c main_v14 : S1024x1024.Idx → EReal) y := by
  unfold iblk
  rw [View.read_apply]
  show V m c main_v14 _ = V m c main_v14 _
  refine congrArg (V m c main_v14) (funext fun a => Fin.ext ?_)
  obtain ⟨-, ⟨e0, e1⟩, -⟩ := idx_facts t
  match a with
  | ⟨0, _⟩ => show win0_1.index t (0 : Fin 2) * 1024 + 1 * (y 0).val = (y 0).val; omega
  | ⟨1, _⟩ => show win0_1.index t (1 : Fin 2) * 1024 + 1 * (y 1).val = (y 1).val; omega
theorem blk2 (c : Dev nD) (t : Fin cfg0.N) (y : S1024x1024.Idx) :
    (iblk m c 2 t : Vec Ideal S1024x1024 .bf16) y = (V m c main_v16 : S1024x1024.Idx → EReal) y := by
  unfold iblk
  rw [View.read_apply]
  show V m c main_v16 _ = V m c main_v16 _
  refine congrArg (V m c main_v16) (funext fun a => Fin.ext ?_)
  obtain ⟨-, -, ⟨e0, e1⟩, -⟩ := idx_facts t
  match a with
  | ⟨0, _⟩ => show win0_2.index t (0 : Fin 2) * 1024 + 1 * (y 0).val = (y 0).val; omega
  | ⟨1, _⟩ => show win0_2.index t (1 : Fin 2) * 1024 + 1 * (y 1).val = (y 1).val; omega
theorem blk3 (c : Dev nD) (t : Fin cfg0.N) (y : S1x1024.Idx) :
    (iblk m c 3 t : Vec Ideal S1x1024 .f32) y = (V m c main_v17 : S1x1024.Idx → EReal) y := by
  unfold iblk
  rw [View.read_apply]
  show V m c main_v17 _ = V m c main_v17 _
  refine congrArg (V m c main_v17) (funext fun a => Fin.ext ?_)
  obtain ⟨-, -, -, ⟨e0, e1⟩, -⟩ := idx_facts t
  match a with
  | ⟨0, _⟩ => show win0_3.index t (0 : Fin 2) * 1 + 1 * (y 0).val = (y 0).val; omega
  | ⟨1, _⟩ => show win0_3.index t (1 : Fin 2) * 1024 + 1 * (y 1).val = (y 1).val; omega
theorem blk4 (c : Dev nD) (t : Fin cfg0.N) (y : S1x1024.Idx) :
    (iblk m c 4 t : Vec Ideal S1x1024 .f32) y = (V m c main_v18 : S1x1024.Idx → EReal) y := by
  unfold iblk
  rw [View.read_apply]
  show V m c main_v18 _ = V m c main_v18 _
  refine congrArg (V m c main_v18) (funext fun a => Fin.ext ?_)
  obtain ⟨-, -, -, -, ⟨e0, e1⟩, -⟩ := idx_facts t
  match a with
  | ⟨0, _⟩ => show win0_4.index t (0 : Fin 2) * 1 + 1 * (y 0).val = (y 0).val; omega
  | ⟨1, _⟩ => show win0_4.index t (1 : Fin 2) * 1024 + 1 * (y 1).val = (y 1).val; omega
theorem blk5 (c : Dev nD) (t : Fin cfg0.N) (y : S16x1x64.Idx) :
    (iblk m c 5 t : Vec Ideal S16x1x64 .f32) y = (V m c main_v12 : S16x1x64.Idx → EReal) y := by
  unfold iblk
  rw [View.read_apply]
  show V m c main_v12 _ = V m c main_v12 _
  refine congrArg (V m c main_v12) (funext fun a => Fin.ext ?_)
  obtain ⟨-, -, -, -, -, ⟨e0, e1, e2⟩, -⟩ := idx_facts t
  match a with
  | ⟨0, _⟩ => show win0_5.index t (0 : Fin 3) * 16 + 1 * (y 0).val = (y 0).val; omega
  | ⟨1, _⟩ => show win0_5.index t (1 : Fin 3) * 1 + 1 * (y 1).val = (y 1).val; omega
  | ⟨2, _⟩ => show win0_5.index t (2 : Fin 3) * 64 + 1 * (y 2).val = (y 2).val; omega

/-! ## The scores and values of the kernel's program, and what each grid point writes back -/

/-- Head `h`'s score of key `k`, from the argument arrays and the query heads the region finds. -/
def sc (c : Dev nD) (h : Fin 16) (k : Fin 8192) : EReal :=
  Attention.score (V m c main_v12 : S16x1x64.Idx → EReal) (m ((c : Thread nD τ).loc main_arg0)) (m ((c : Thread nD τ).loc main_arg1))
    (m ((c : Thread nD τ).loc main_arg2)) h k
/-- Coordinate `d` of head `h`'s value of key `k`. -/
def vl (c : Dev nD) (h : Fin 16) (d : Fin 64) (k : Fin 8192) : EReal :=
  Attention.value (m ((c : Thread nD τ).loc main_arg0)) (m ((c : Thread nD τ).loc main_arg1)) (m ((c : Thread nD τ).loc main_arg2)) h d k

/-- The tile's scores, computed from the blocks at point `t`, are the scores of the keys `512·t + r`. -/
theorem tscore_eq (c : Dev nD) (t : Fin cfg0.N) (h : Fin 16) (r : Fin 512) :
    TileBody.tscore (iblk m c 0 t) (iblk m c 1 t) (iblk m c 3 t) (iblk m c 5 t) h r = sc m c h (Attention.key (tile t) r) := by
  unfold TileBody.tscore sc Attention.score Attention.proj
  refine congrArg (· * _) (Finset.sum_congr rfl fun d _ => ?_)
  refine congrArg₂ (· * ·) (blk5 m c t _) (congrArg₂ (· + ·) (Finset.sum_congr rfl fun j _ => ?_) ?_)
  · exact congrArg₂ (· * ·) (blk0 m c t r j) ((blk1 m c t _).trans (KernelInputs.V_wk m c j _))
  · exact (blk3 m c t _).trans (KernelInputs.V_bk m c _)

/-- Likewise the tile's values. -/
theorem tvalue_eq (c : Dev nD) (t : Fin cfg0.N) (h : Fin 16) (d : Fin 64) (r : Fin 512) :
    TileBody.tvalue (iblk m c 0 t) (iblk m c 2 t) (iblk m c 4 t) h d r = vl m c h d (Attention.key (tile t) r) := by
  unfold TileBody.tvalue vl Attention.value Attention.proj
  refine congrArg₂ (· + ·) (Finset.sum_congr rfl fun j _ => ?_) ?_
  · exact congrArg₂ (· * ·) (blk0 m c t r j) ((blk2 m c t _).trans (KernelInputs.V_wv m c j _))
  · exact (blk4 m c t _).trans (KernelInputs.V_bv m c _)

/-- The three result arrays as whole-array functions: entry (tile, head) holds that tile's maximum, sum of
    exponentials, and weighted values for that head. -/
def G6 (c : Dev nD) : S16x16x1x1.Idx → EReal := fun i => Attention.blockMax fun r => sc m c (i 1) (Attention.key (i 0) r)
def G7 (c : Dev nD) : S16x16x1x1.Idx → EReal := fun i => Attention.blockSum fun r => sc m c (i 1) (Attention.key (i 0) r)
def G8 (c : Dev nD) : S16x16x1x64.Idx → EReal := fun i =>
  Attention.blockAcc (fun r => sc m c (i 1) (Attention.key (i 0) r)) fun r => vl m c (i 1) (i 3) (Attention.key (i 0) r)

theorem emb6 (t : Fin cfg0.N) (h : Fin 16) :
    ((cfg0.win 6).blk t).view.emb (ix4 (0 : Fin 1) h (0 : Fin 1) (0 : Fin 1)) = ix4 (tile t) h (0 : Fin 1) (0 : Fin 1) := by
  funext a; apply Fin.ext
  obtain ⟨-, -, -, -, -, -, ⟨e0, e1, e2, e3⟩, -⟩ := idx_facts t
  match a with
  | ⟨0, _⟩ => show win0_6.index t (0 : Fin 4) * 1 + 1 * 0 = t.val; omega
  | ⟨1, _⟩ => show win0_6.index t (1 : Fin 4) * 16 + 1 * h.val = h.val; omega
  | ⟨2, _⟩ => show win0_6.index t (2 : Fin 4) * 1 + 1 * 0 = 0; omega
  | ⟨3, _⟩ => show win0_6.index t (3 : Fin 4) * 1 + 1 * 0 = 0; omega
theorem emb7 (t : Fin cfg0.N) (h : Fin 16) :
    ((cfg0.win 7).blk t).view.emb (ix4 (0 : Fin 1) h (0 : Fin 1) (0 : Fin 1)) = ix4 (tile t) h (0 : Fin 1) (0 : Fin 1) := by
  funext a; apply Fin.ext
  obtain ⟨-, -, -, -, -, -, -, ⟨e0, e1, e2, e3⟩, -⟩ := idx_facts t
  match a with
  | ⟨0, _⟩ => show win0_7.index t (0 : Fin 4) * 1 + 1 * 0 = t.val; omega
  | ⟨1, _⟩ => show win0_7.index t (1 : Fin 4) * 16 + 1 * h.val = h.val; omega
  | ⟨2, _⟩ => show win0_7.index t (2 : Fin 4) * 1 + 1 * 0 = 0; omega
  | ⟨3, _⟩ => show win0_7.index t (3 : Fin 4) * 1 + 1 * 0 = 0; omega
theorem emb8 (t : Fin cfg0.N) (h : Fin 16) (d : Fin 64) :
    ((cfg0.win 8).blk t).view.emb (ix4 (0 : Fin 1) h (0 : Fin 1) d) = ix4 (tile t) h (0 : Fin 1) d := by
  funext a; apply Fin.ext
  obtain ⟨-, -, -, -, -, -, -, -, ⟨e0, e1, e2, e3⟩⟩ := idx_facts t
  match a with
  | ⟨0, _⟩ => show win0_8.index t (0 : Fin 4) * 1 + 1 * 0 = t.val; omega
  | ⟨1, _⟩ => show win0_8.index t (1 : Fin 4) * 16 + 1 * h.val = h.val; omega
  | ⟨2, _⟩ => show win0_8.index t (2 : Fin 4) * 1 + 1 * 0 = 0; omega
  | ⟨3, _⟩ => show win0_8.index t (3 : Fin 4) * 64 + 1 * d.val = d.val; omega

/-- What point `t` writes back to the array of maxima is block `t` of `G6`. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  unfold out0_6
  rw [View.canon_unit_zero hz4]
  simp only [View.ld_unit_zero (S := S512x1024) hz2, View.ld_unit_zero (S := S1024x1024) hz2, View.ld_unit_zero (S := S1x1024) hz2,
    View.ld_unit_zero (S := S16x1x64) hz3]
  funext y
  rw [View.read_apply]
  revert y
  show ∀ y : S1x16x1x1.Idx, k0_pay9 (F := Ideal) (iblk m c 0 t) (iblk m c 1 t) (iblk m c 3 t) (iblk m c 5 t) y
    = G6 m c (((cfg0.win 6).blk t).view.emb y)
  intro y
  obtain ⟨a, h, b, d, rfl⟩ : ∃ (a : Fin 1) (h : Fin 16) (b : Fin 1) (d : Fin 1), y = ix4 a h b d := ⟨y 0, y 1, y 2, y 3, eq_ix4 y⟩
  obtain rfl : a = 0 := Subsingleton.elim _ _
  obtain rfl : b = 0 := Subsingleton.elim _ _
  obtain rfl : d = 0 := Subsingleton.elim _ _
  refine (TileBody.pay_max (iblk m c 0 t) (iblk m c 1 t) (iblk m c 3 t) (iblk m c 5 t) h).trans ?_
  refine Eq.trans ?_ (congrArg (G6 m c) (emb6 t h).symm)
  show _ = Attention.blockMax fun r => sc m c h (Attention.key (tile t) r)
  exact congrArg Attention.blockMax (funext fun r => tscore_eq m c t h r)

/-- What point `t` writes back to the array of sums is block `t` of `G7`. -/
theorem flushed7_eq (c : Dev nD) (t : Fin cfg0.N) :
    (dats m 0 c).flushed 7 t = ((cfg0.win 7).blk t).view.read (Elt Ideal) (G7 m c) := by
  show (cfg0.win 7).cut (grid0.coords t) ((dats m 0 c).after 7 t) = _
  rw [after0_7]
  unfold out0_7
  rw [View.canon_unit_zero hz4]
  simp only [View.ld_unit_zero (S := S512x1024) hz2, View.ld_unit_zero (S := S1024x1024) hz2, View.ld_unit_zero (S := S1x1024) hz2,
    View.ld_unit_zero (S := S16x1x64) hz3]
  funext y
  rw [View.read_apply]
  revert y
  show ∀ y : S1x16x1x1.Idx, k0_pay1 (F := Ideal) (k0_pay7 (F := Ideal) (iblk m c 0 t) (iblk m c 1 t) (iblk m c 3 t) (iblk m c 5 t)) y
    = G7 m c (((cfg0.win 7).blk t).view.emb y)
  intro y
  obtain ⟨a, h, b, d, rfl⟩ : ∃ (a : Fin 1) (h : Fin 16) (b : Fin 1) (d : Fin 1), y = ix4 a h b d := ⟨y 0, y 1, y 2, y 3, eq_ix4 y⟩
  obtain rfl : a = 0 := Subsingleton.elim _ _
  obtain rfl : b = 0 := Subsingleton.elim _ _
  obtain rfl : d = 0 := Subsingleton.elim _ _
  refine (TileBody.pay_sum (iblk m c 0 t) (iblk m c 1 t) (iblk m c 3 t) (iblk m c 5 t) h).trans ?_
  refine Eq.trans ?_ (congrArg (G7 m c) (emb7 t h).symm)
  show _ = Attention.blockSum fun r => sc m c h (Attention.key (tile t) r)
  exact congrArg Attention.blockSum (funext fun r => tscore_eq m c t h r)

/-- What point `t` writes back to the array of weighted values is block `t` of `G8`. -/
theorem flushed8_eq (c : Dev nD) (t : Fin cfg0.N) :
    (dats m 0 c).flushed 8 t = ((cfg0.win 8).blk t).view.read (Elt Ideal) (G8 m c) := by
  show (cfg0.win 8).cut (grid0.coords t) ((dats m 0 c).after 8 t) = _
  rw [after0_8]
  unfold out0_8
  rw [View.canon_unit_zero hz4]
  simp only [View.ld_unit_zero (S := S512x1024) hz2, View.ld_unit_zero (S := S1024x1024) hz2, View.ld_unit_zero (S := S1x1024) hz2,
    View.ld_unit_zero (S := S16x1x64) hz3]
  funext y
  rw [View.read_apply]
  revert y
  show ∀ y : S1x16x1x64.Idx, k0_pay2 (F := Ideal) (k0_pay8 (F := Ideal) (iblk m c 0 t) (iblk m c 1 t) (iblk m c 3 t) (iblk m c 2 t) (iblk m c 4 t) (iblk m c 5 t)) y
    = G8 m c (((cfg0.win 8).blk t).view.emb y)
  intro y
  obtain ⟨a, h, b, d, rfl⟩ : ∃ (a : Fin 1) (h : Fin 16) (b : Fin 1) (d : Fin 64), y = ix4 a h b d := ⟨y 0, y 1, y 2, y 3, eq_ix4 y⟩
  obtain rfl : a = 0 := Subsingleton.elim _ _
  obtain rfl : b = 0 := Subsingleton.elim _ _
  refine (TileBody.pay_acc (iblk m c 0 t) (iblk m c 1 t) (iblk m c 2 t) (iblk m c 3 t) (iblk m c 4 t) (iblk m c 5 t) h d).trans ?_
  refine Eq.trans ?_ (congrArg (G8 m c) (emb8 t h d).symm)
  show _ = Attention.blockAcc (fun r => sc m c h (Attention.key (tile t) r)) fun r => vl m c h d (Attention.key (tile t) r)
  exact congrArg₂ Attention.blockAcc (funext fun r => tscore_eq m c t h r) (funext fun r => tvalue_eq m c t h d r)

/-! ## The blocks tile the arrays -/

theorem mem_blk6 (t : Fin cfg0.N) (i : S16x16x1x1.Idx) :
    i ∈ ((cfg0.win 6).blk t).view.set ↔ ∀ a : Fin 4, win0_6.index t a * S1x16x1x1.size a ≤ (i a).val ∧ (i a).val < win0_6.index t a * S1x16x1x1.size a + S1x16x1x1.size a := by
  show i ∈ ((View.whole main_v19_0).slice (win0_6.rect t)).set ↔ _
  rw [View.set_slice_whole, Rect.mem_set_unit]
  exact Iff.rfl
theorem mem_blk7 (t : Fin cfg0.N) (i : S16x16x1x1.Idx) :
    i ∈ ((cfg0.win 7).blk t).view.set ↔ ∀ a : Fin 4, win0_7.index t a * S1x16x1x1.size a ≤ (i a).val ∧ (i a).val < win0_7.index t a * S1x16x1x1.size a + S1x16x1x1.size a := by
  show i ∈ ((View.whole main_v19_1).slice (win0_7.rect t)).set ↔ _
  rw [View.set_slice_whole, Rect.mem_set_unit]
  exact Iff.rfl
theorem mem_blk8 (t : Fin cfg0.N) (i : S16x16x1x64.Idx) :
    i ∈ ((cfg0.win 8).blk t).view.set ↔ ∀ a : Fin 4, win0_8.index t a * S1x16x1x64.size a ≤ (i a).val ∧ (i a).val < win0_8.index t a * S1x16x1x64.size a + S1x16x1x64.size a := by
  show i ∈ ((View.whole main_v19_2).slice (win0_8.rect t)).set ↔ _
  rw [View.set_slice_whole, Rect.mem_set_unit]
  exact Iff.rfl

/-- The point that covers an index is its leading coordinate. -/
def pointOf (k : Nat) (hk : k < 16) : Fin cfg0.N := ⟨k, by have h : cfg0.N = 16 := N_0; omega⟩

theorem cover6 (i : S16x16x1x1.Idx) : ∃ t : Fin cfg0.N, (cfg0.win 6).flush t = true ∧ i ∈ ((cfg0.win 6).blk t).view.set := by
  have h0 : (i 0).val < 16 := (i 0).isLt
  have h1 : (i 1).val < 16 := (i 1).isLt
  have h2 : (i 2).val < 1 := (i 2).isLt
  have h3 : (i 3).val < 1 := (i 3).isLt
  refine ⟨pointOf (i 0).val h0, flush0_6 _, ?_⟩
  rw [mem_blk6]
  obtain ⟨-, -, -, -, -, -, ⟨e0, e1, e2, e3⟩, -⟩ := idx_facts (pointOf (i 0).val h0)
  have ev : (pointOf (i 0).val h0).val = (i 0).val := rfl
  intro a
  match a with
  | ⟨0, _⟩ => show win0_6.index (pointOf (i 0).val h0) (0 : Fin 4) * 1 ≤ (i 0).val ∧ (i 0).val < win0_6.index (pointOf (i 0).val h0) (0 : Fin 4) * 1 + 1; omega
  | ⟨1, _⟩ => show win0_6.index (pointOf (i 0).val h0) (1 : Fin 4) * 16 ≤ (i 1).val ∧ (i 1).val < win0_6.index (pointOf (i 0).val h0) (1 : Fin 4) * 16 + 16; omega
  | ⟨2, _⟩ => show win0_6.index (pointOf (i 0).val h0) (2 : Fin 4) * 1 ≤ (i 2).val ∧ (i 2).val < win0_6.index (pointOf (i 0).val h0) (2 : Fin 4) * 1 + 1; omega
  | ⟨3, _⟩ => show win0_6.index (pointOf (i 0).val h0) (3 : Fin 4) * 1 ≤ (i 3).val ∧ (i 3).val < win0_6.index (pointOf (i 0).val h0) (3 : Fin 4) * 1 + 1; omega
theorem cover7 (i : S16x16x1x1.Idx) : ∃ t : Fin cfg0.N, (cfg0.win 7).flush t = true ∧ i ∈ ((cfg0.win 7).blk t).view.set := by
  have h0 : (i 0).val < 16 := (i 0).isLt
  have h1 : (i 1).val < 16 := (i 1).isLt
  have h2 : (i 2).val < 1 := (i 2).isLt
  have h3 : (i 3).val < 1 := (i 3).isLt
  refine ⟨pointOf (i 0).val h0, flush0_7 _, ?_⟩
  rw [mem_blk7]
  obtain ⟨-, -, -, -, -, -, -, ⟨e0, e1, e2, e3⟩, -⟩ := idx_facts (pointOf (i 0).val h0)
  have ev : (pointOf (i 0).val h0).val = (i 0).val := rfl
  intro a
  match a with
  | ⟨0, _⟩ => show win0_7.index (pointOf (i 0).val h0) (0 : Fin 4) * 1 ≤ (i 0).val ∧ (i 0).val < win0_7.index (pointOf (i 0).val h0) (0 : Fin 4) * 1 + 1; omega
  | ⟨1, _⟩ => show win0_7.index (pointOf (i 0).val h0) (1 : Fin 4) * 16 ≤ (i 1).val ∧ (i 1).val < win0_7.index (pointOf (i 0).val h0) (1 : Fin 4) * 16 + 16; omega
  | ⟨2, _⟩ => show win0_7.index (pointOf (i 0).val h0) (2 : Fin 4) * 1 ≤ (i 2).val ∧ (i 2).val < win0_7.index (pointOf (i 0).val h0) (2 : Fin 4) * 1 + 1; omega
  | ⟨3, _⟩ => show win0_7.index (pointOf (i 0).val h0) (3 : Fin 4) * 1 ≤ (i 3).val ∧ (i 3).val < win0_7.index (pointOf (i 0).val h0) (3 : Fin 4) * 1 + 1; omega
theorem cover8 (i : S16x16x1x64.Idx) : ∃ t : Fin cfg0.N, (cfg0.win 8).flush t = true ∧ i ∈ ((cfg0.win 8).blk t).view.set := by
  have h0 : (i 0).val < 16 := (i 0).isLt
  have h1 : (i 1).val < 16 := (i 1).isLt
  have h2 : (i 2).val < 1 := (i 2).isLt
  have h3 : (i 3).val < 64 := (i 3).isLt
  refine ⟨pointOf (i 0).val h0, flush0_8 _, ?_⟩
  rw [mem_blk8]
  obtain ⟨-, -, -, -, -, -, -, -, ⟨e0, e1, e2, e3⟩⟩ := idx_facts (pointOf (i 0).val h0)
  have ev : (pointOf (i 0).val h0).val = (i 0).val := rfl
  intro a
  match a with
  | ⟨0, _⟩ => show win0_8.index (pointOf (i 0).val h0) (0 : Fin 4) * 1 ≤ (i 0).val ∧ (i 0).val < win0_8.index (pointOf (i 0).val h0) (0 : Fin 4) * 1 + 1; omega
  | ⟨1, _⟩ => show win0_8.index (pointOf (i 0).val h0) (1 : Fin 4) * 16 ≤ (i 1).val ∧ (i 1).val < win0_8.index (pointOf (i 0).val h0) (1 : Fin 4) * 16 + 16; omega
  | ⟨2, _⟩ => show win0_8.index (pointOf (i 0).val h0) (2 : Fin 4) * 1 ≤ (i 2).val ∧ (i 2).val < win0_8.index (pointOf (i 0).val h0) (2 : Fin 4) * 1 + 1; omega
  | ⟨3, _⟩ => show win0_8.index (pointOf (i 0).val h0) (3 : Fin 4) * 64 ≤ (i 3).val ∧ (i 3).val < win0_8.index (pointOf (i 0).val h0) (3 : Fin 4) * 64 + 64; omega

/-- So the three arrays end holding `G6`, `G7`, `G8`. -/
theorem final6 (c : Dev nD) : (dats m 0 c).arrAt 6 cfg0.N = G6 m c :=
  (dats m 0 c).arrAt_eq_of_cover 6 (G6 m c) (fun t _ => flushed6_eq m c t) cover6
theorem final7 (c : Dev nD) : (dats m 0 c).arrAt 7 cfg0.N = G7 m c :=
  (dats m 0 c).arrAt_eq_of_cover 7 (G7 m c) (fun t _ => flushed7_eq m c t) cover7
theorem final8 (c : Dev nD) : (dats m 0 c).arrAt 8 cfg0.N = G8 m c :=
  (dats m 0 c).arrAt_eq_of_cover 8 (G8 m c) (fun t _ => flushed8_eq m c t) cover8

/-! ## The host lines after the region, and the run -/

set_option maxHeartbeats 2000000 in
/-- The program's result: the host tail applied to the three arrays the region leaves. -/
theorem tail_result (c : Dev nD) :
    Pipeline.afterTail₀ cfgs (dats m) 0 (V0 m) [hostOps1] c main_v37
      = CombineTail.outProj (F := Ideal) (CombineTail.attnOut (F := Ideal) (G6 m c) (G7 m c) (G8 m c)) (m ((c : Thread nD τ).loc main_arg3)) (m ((c : Thread nD τ).loc main_arg4)) := by
  unfold Pipeline.afterTail₀
  show StableHlo.after hostOps1 _ (Proc.devRef .tc main_v37) = _
  after_results_simp
  have a6 := (Pipeline.withArrays_arr spec0 launch0.win.arr_inj c (V0 m c) (fun w => (dats m 0 c).arrAt w cfg0.N) 6).trans (final6 m c)
  have a7 := (Pipeline.withArrays_arr spec0 launch0.win.arr_inj c (V0 m c) (fun w => (dats m 0 c).arrAt w cfg0.N) 7).trans (final7 m c)
  have a8 := (Pipeline.withArrays_arr spec0 launch0.win.arr_inj c (V0 m c) (fun w => (dats m 0 c).arrAt w cfg0.N) 8).trans (final8 m c)
  have a3 := (Pipeline.withArrays_of_ne spec0 c (V0 m c) (fun w => (dats m 0 c).arrAt w cfg0.N) main_arg3 (by exact (by decide : ∀ w, Pipeline.arrRef spec0 w ≠ main_arg3))).trans (V_main_arg3 m c)
  have a4 := (Pipeline.withArrays_of_ne spec0 c (V0 m c) (fun w => (dats m 0 c).arrAt w cfg0.N) main_arg4 (by exact (by decide : ∀ w, Pipeline.arrRef spec0 w ≠ main_arg4))).trans (V_main_arg4 m c)
  have a6' : Pipeline.withArrays (cfgs 0).spec c (V0 m c) (fun w => (dats m 0 c).arrAt w (cfgs 0).N) (Proc.devRef .tc main_v19_0) = G6 m c := a6
  have a7' : Pipeline.withArrays (cfgs 0).spec c (V0 m c) (fun w => (dats m 0 c).arrAt w (cfgs 0).N) (Proc.devRef .tc main_v19_1) = G7 m c := a7
  have a8' : Pipeline.withArrays (cfgs 0).spec c (V0 m c) (fun w => (dats m 0 c).arrAt w (cfgs 0).N) (Proc.devRef .tc main_v19_2) = G8 m c := a8
  have a3' : Pipeline.withArrays (cfgs 0).spec c (V0 m c) (fun w => (dats m 0 c).arrAt w (cfgs 0).N) (Proc.devRef .tc main_arg3) = m ((c : Thread nD τ).loc main_arg3) := a3
  have a4' : Pipeline.withArrays (cfgs 0).spec c (V0 m c) (fun w => (dats m 0 c).arrAt w (cfgs 0).N) (Proc.devRef .tc main_arg4) = m ((c : Thread nD τ).loc main_arg4) := a4
  rw [a6', a7', a8', a3', a4']
  rfl

/-- The run of the kernel's program, read: its result is the output projection of the combined tiles, and the
    argument arrays end unchanged. -/
theorem run : θ_run defs (onTc (τ := τ) (main (F := Ideal))) ⟨m, fun _ => 0, ρ⟩ fun r => ∀ c : Dev nD,
      r.2.mem ((c.tc : Thread nD τ).loc main_v37)
        = CombineTail.outProj (F := Ideal) (CombineTail.attnOut (F := Ideal) (G6 m c) (G7 m c) (G8 m c)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v37 (Pipeline.mem_restRefs_of main_v37 (by decide) (by decide))).trans (tail_result m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.KernelArrays

end
-- ==== Proof.SoftmaxTiles.lean ====
/-
  The softmax-weighted mean of 8192 keys, computed tile by tile, is the one computed in one piece.

  Write σ k, ν k for the (real) scores and values.  For any real shifts m_i (one per tile) and M,

      exp (σ k - m_i) · exp (m_i - M) = exp (σ k - M),

  so the rescaled tile sums add up to  N = Σ_k exp (σ k - M) · ν k  and  D = Σ_k exp (σ k - M),
  once the sum over the keys is cut as  Σ_k = Σ_i Σ_r  along the bijection (i, r) ↦ 512·i + r.
  The quotient N / D does not depend on the shift M: replacing M by M' multiplies N and D by the same
  positive factor exp (M' - M).  Hence the identity needs nothing of the maxima except that they are
  real numbers, which holds because a maximum over a nonempty finite family of reals is one of them.
  The rest is bookkeeping: every extended-real expression of the two roads is the coercion of its
  real twin, and division by the positive real D is multiplication by 1 / D.
-/
import proofs.«157563_j35897336660262_2_alg».proof.Proof.Attention
import Mathlib.Algebra.BigOperators.Field
import Mathlib.Algebra.Order.BigOperators.Group.Finset
import Mathlib.Data.Fintype.BigOperators
import Mathlib.Data.Finset.Lattice.Fold
import Mathlib.Tactic

noncomputable section

namespace Cert.Attention

open Idealize.ShloMosaic

/-! ## The keys are the pairs (tile, row) -/

/-- `(i, r) ↦ 512·i + r` is a bijection from the pairs onto the keys. -/
def keyEquiv : Fin 16 × Fin 512 ≃ Fin 8192 where
  toFun p := key p.1 p.2
  invFun k := (⟨k.val / 512, by have := k.isLt; omega⟩, ⟨k.val % 512, Nat.mod_lt _ (by norm_num)⟩)
  left_inv := by
    rintro ⟨i, r⟩
    have hi := i.isLt
    have hr := r.isLt
    refine Prod.ext (Fin.ext ?_) (Fin.ext ?_)
    · show (512 * i.val + r.val) / 512 = i.val
      omega
    · show (512 * i.val + r.val) % 512 = r.val
      omega
  right_inv := by
    intro k
    refine Fin.ext ?_
    show 512 * (k.val / 512) + k.val % 512 = k.val
    omega

/-- A sum over the keys is the sum over the tiles of the sums over the tile's rows. -/
theorem sum_key {A : Type*} [AddCommMonoid A] (f : Fin 8192 → A) :
    ∑ k : Fin 8192, f k = ∑ i : Fin 16, ∑ r : Fin 512, f (key i r) := by
  rw [← keyEquiv.sum_comp f, Fintype.sum_prod_type]
  rfl

/-! ## The identity over the reals -/

/-- The tiled quotient equals the softmax-weighted sum, whatever the shifts `m i`, `M`, `M'`. -/
theorem real_tiles (σ ν : Fin 8192 → ℝ) (m : Fin 16 → ℝ) (M M' : ℝ) :
    (∑ i : Fin 16, Real.exp (m i - M) * ∑ r : Fin 512, Real.exp (σ (key i r) - m i) * ν (key i r)) /
      (∑ i : Fin 16, Real.exp (m i - M) * ∑ r : Fin 512, Real.exp (σ (key i r) - m i)) =
    ∑ k : Fin 8192, Real.exp (σ k - M') / (∑ k' : Fin 8192, Real.exp (σ k' - M')) * ν k := by
  have hN : (∑ i : Fin 16, Real.exp (m i - M) * ∑ r : Fin 512, Real.exp (σ (key i r) - m i) * ν (key i r))
      = Real.exp (M' - M) * ∑ k : Fin 8192, Real.exp (σ k - M') * ν k := by
    rw [sum_key (fun k => Real.exp (σ k - M') * ν k), Finset.mul_sum]
    refine Finset.sum_congr rfl fun i _ => ?_
    rw [Finset.mul_sum, Finset.mul_sum]
    refine Finset.sum_congr rfl fun r _ => ?_
    rw [← mul_assoc, ← mul_assoc, ← Real.exp_add, ← Real.exp_add]
    congr 2
    ring
  have hD : (∑ i : Fin 16, Real.exp (m i - M) * ∑ r : Fin 512, Real.exp (σ (key i r) - m i))
      = Real.exp (M' - M) * ∑ k : Fin 8192, Real.exp (σ k - M') := by
    rw [sum_key (fun k => Real.exp (σ k - M')), Finset.mul_sum]
    refine Finset.sum_congr rfl fun i _ => ?_
    rw [Finset.mul_sum, Finset.mul_sum]
    refine Finset.sum_congr rfl fun r _ => ?_
    rw [← Real.exp_add, ← Real.exp_add]
    congr 1
    ring
  rw [hN, hD, mul_div_mul_left _ _ (Real.exp_pos _).ne', Finset.sum_div]
  refine Finset.sum_congr rfl fun k _ => ?_
  ring

/-! ## Coercions -/

/-- The coercion of a finite sum of reals is the sum of the coercions. -/
theorem coe_finsum {ι : Type*} (t : Finset ι) (f : ι → ℝ) :
    ((∑ i ∈ t, f i : ℝ) : EReal) = ∑ i ∈ t, (f i : EReal) :=
  map_sum (⟨⟨((↑) : ℝ → EReal), EReal.coe_zero⟩, EReal.coe_add⟩ : ℝ →+ EReal) f t

/-- The maximum, from `-∞`, of a nonempty finite family of reals is one of them. -/
theorem fold_max_coe {ι : Type*} (t : Finset ι) (ht : t.Nonempty) (f : ι → ℝ) :
    ∃ x : ℝ, t.fold max ⊥ (fun i => (f i : EReal)) = (x : EReal) := by
  obtain ⟨i, -, hi⟩ := Finset.exists_mem_eq_sup t ht (fun i => (f i : EReal))
  exact ⟨f i, hi⟩

theorem exp_coe_sub (a b : ℝ) : Ideal.exp ((a : EReal) - (b : EReal)) = ((Real.exp (a - b) : ℝ) : EReal) := by
  rw [← EReal.coe_sub]
  rfl

theorem blockSum_coe (f : Fin 512 → ℝ) (x : ℝ) (h : blockMax (fun r => (f r : EReal)) = (x : EReal)) :
    blockSum (fun r => (f r : EReal)) = ((∑ r : Fin 512, Real.exp (f r - x) : ℝ) : EReal) := by
  unfold blockSum
  rw [h, coe_finsum]
  exact Finset.sum_congr rfl fun r _ => exp_coe_sub _ _

theorem blockAcc_coe (f g : Fin 512 → ℝ) (x : ℝ) (h : blockMax (fun r => (f r : EReal)) = (x : EReal)) :
    blockAcc (fun r => (f r : EReal)) (fun r => (g r : EReal))
      = ((∑ r : Fin 512, Real.exp (f r - x) * g r : ℝ) : EReal) := by
  unfold blockAcc
  rw [h, coe_finsum]
  refine Finset.sum_congr rfl fun r _ => ?_
  rw [exp_coe_sub, EReal.coe_mul]

theorem combine_coe (m L A : Fin 16 → ℝ) (M : ℝ)
    (hM : (Finset.univ : Finset (Fin 16)).fold max ⊥ (fun i => (m i : EReal)) = (M : EReal))
    (hD : (∑ i : Fin 16, Real.exp (m i - M) * L i) ≠ 0) :
    combine (fun i => (m i : EReal)) (fun i => (L i : EReal)) (fun i => (A i : EReal))
      = (((∑ i : Fin 16, Real.exp (m i - M) * A i) / (∑ i : Fin 16, Real.exp (m i - M) * L i) : ℝ) : EReal) := by
  unfold combine
  rw [hM]
  have h1 : (0 : EReal) + ∑ i : Fin 16, Ideal.exp ((m i : EReal) - (M : EReal)) * (A i : EReal)
      = ((∑ i : Fin 16, Real.exp (m i - M) * A i : ℝ) : EReal) := by
    rw [zero_add, coe_finsum]
    refine Finset.sum_congr rfl fun i _ => ?_
    rw [exp_coe_sub, EReal.coe_mul]
  have h2 : (0 : EReal) + ∑ i : Fin 16, Ideal.exp ((m i : EReal) - (M : EReal)) * (L i : EReal)
      = ((∑ i : Fin 16, Real.exp (m i - M) * L i : ℝ) : EReal) := by
    rw [zero_add, coe_finsum]
    refine Finset.sum_congr rfl fun i _ => ?_
    rw [exp_coe_sub, EReal.coe_mul]
  rw [h1, h2, Ideal.div_coe hD, ← EReal.coe_mul, ← div_eq_mul_one_div]

theorem whole_coe (σ ν : Fin 8192 → ℝ) (M' : ℝ)
    (hM' : rowMax (fun k => (σ k : EReal)) = (M' : EReal))
    (hZ : (∑ k : Fin 8192, Real.exp (σ k - M')) ≠ 0) :
    whole (fun k => (σ k : EReal)) (fun k => (ν k : EReal))
      = ((∑ k : Fin 8192, Real.exp (σ k - M') / (∑ k' : Fin 8192, Real.exp (σ k' - M')) * ν k : ℝ) : EReal) := by
  unfold whole
  rw [hM']
  have hZ' : (0 : EReal) + ∑ k' : Fin 8192, Ideal.exp ((σ k' : EReal) - (M' : EReal))
      = ((∑ k' : Fin 8192, Real.exp (σ k' - M') : ℝ) : EReal) := by
    rw [zero_add, coe_finsum]
    exact Finset.sum_congr rfl fun k _ => exp_coe_sub _ _
  rw [coe_finsum, hZ']
  refine Finset.sum_congr rfl fun k _ => ?_
  rw [exp_coe_sub, Ideal.div_coe hZ, ← EReal.coe_mul, ← EReal.coe_mul, ← div_eq_mul_one_div]

/-! ## The two roads agree -/

theorem tiled_eq_whole (s v : Fin 8192 → EReal) (hs : ∀ k, IsReal (s k)) (hv : ∀ k, IsReal (v k)) :
    tiled s v = whole s v := by
  choose σ hσ using hs
  choose ν hν using hv
  obtain rfl : s = fun k => (σ k : EReal) := funext hσ
  obtain rfl : v = fun k => (ν k : EReal) := funext hν
  have ne16 : (Finset.univ : Finset (Fin 16)).Nonempty := ⟨⟨0, by norm_num⟩, Finset.mem_univ _⟩
  have ne512 : (Finset.univ : Finset (Fin 512)).Nonempty := ⟨⟨0, by norm_num⟩, Finset.mem_univ _⟩
  have ne8192 : (Finset.univ : Finset (Fin 8192)).Nonempty := ⟨⟨0, by norm_num⟩, Finset.mem_univ _⟩
  -- the tiles' maxima, the maximum of the maxima and the row maximum are real numbers
  have hm : ∀ i : Fin 16, ∃ x : ℝ, blockMax (fun r => ((σ (key i r) : ℝ) : EReal)) = (x : EReal) :=
    fun i => fold_max_coe _ ne512 fun r => σ (key i r)
  choose m hm using hm
  obtain ⟨M, hM⟩ := fold_max_coe _ ne16 m
  obtain ⟨M', hM'⟩ : ∃ x : ℝ, rowMax (fun k => (σ k : EReal)) = (x : EReal) := by
    obtain ⟨x, hx⟩ := fold_max_coe _ ne8192 σ
    exact ⟨x, by unfold rowMax; rw [hx]; exact max_eq_right bot_le⟩
  have hD : (∑ i : Fin 16, Real.exp (m i - M) * ∑ r : Fin 512, Real.exp (σ (key i r) - m i)) ≠ 0 :=
    (Finset.sum_pos (fun i _ => mul_pos (Real.exp_pos _)
      (Finset.sum_pos (fun r _ => Real.exp_pos _) ne512)) ne16).ne'
  have hZ : (∑ k : Fin 8192, Real.exp (σ k - M')) ≠ 0 :=
    (Finset.sum_pos (fun k _ => Real.exp_pos _) ne8192).ne'
  unfold tiled
  have e1 : (fun i : Fin 16 => blockMax fun r => ((σ (key i r) : ℝ) : EReal)) = fun i => (m i : EReal) :=
    funext hm
  have e2 : (fun i : Fin 16 => blockSum fun r => ((σ (key i r) : ℝ) : EReal))
      = fun i => ((∑ r : Fin 512, Real.exp (σ (key i r) - m i) : ℝ) : EReal) :=
    funext fun i => blockSum_coe _ _ (hm i)
  have e3 : (fun i : Fin 16 => blockAcc (fun r => ((σ (key i r) : ℝ) : EReal)) fun r => ((ν (key i r) : ℝ) : EReal))
      = fun i => ((∑ r : Fin 512, Real.exp (σ (key i r) - m i) * ν (key i r) : ℝ) : EReal) :=
    funext fun i => blockAcc_coe _ _ _ (hm i)
  rw [e1, e2, e3, combine_coe m _ _ M hM hD, whole_coe σ ν M' hM' hZ, real_tiles σ ν m M M']

end Cert.Attention

end
-- ==== Proof.RealClosure.lean ====
/-
  Being a real number (not ±∞) is kept by everything the two programs compute before the softmax:
  sums, products, finite sums, the constant 1/8, and hence the projections, the scores and the values.
-/
import proofs.«157563_j35897336660262_2_alg».proof.Proof.Attention
import Mathlib.Tactic

noncomputable section

namespace Cert.Attention

open Idealize.ShloMosaic Idealize.ShloMosaic.ValueIdx

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number (induction on the index set). -/
theorem IsReal.sum {ι : Type*} [Fintype ι] (f : ι → EReal) (h : ∀ i, IsReal (f i)) : IsReal (∑ i, f i) := by
  classical
  have key : ∀ t : Finset ι, IsReal (∑ i ∈ t, f i) := by
    intro t
    induction t using Finset.induction_on with
    | empty => exact ⟨0, by simp⟩
    | insert a t ha ih =>
      rw [Finset.sum_insert ha]
      exact (h a).add ih
  exact key Finset.univ

/-- The binary32 pattern `0x3E000000`: sign 0, exponent field 124, fraction 0, that is
    `2^23 · 2^(124 - 127 - 23) = 1/8`; in particular a real number. -/
theorem isReal_eighth : IsReal (Ideal.ofBits .f32 0x3E000000#32) := by
  refine ⟨1 / 8, ?_⟩
  simp [Ideal.ofBits, Ideal.ieee]
  rw [← EReal.coe_mul, EReal.coe_eq_coe_iff]
  norm_num

theorem isReal_proj (off : Nat) (hoff : off + 1024 ≤ 3072) (x : (⟨2, ![8192, 1024]⟩ : Shape).Idx → EReal)
    (w : (⟨2, ![3072, 1024]⟩ : Shape).Idx → EReal) (b : (⟨1, ![3072]⟩ : Shape).Idx → EReal)
    (hx : ∀ i, IsReal (x i)) (hw : ∀ i, IsReal (w i)) (hb : ∀ i, IsReal (b i))
    (k : Fin 8192) (e : Fin 1024) : IsReal (proj off hoff x w b k e) := by
  unfold proj
  exact (IsReal.sum _ fun j => (hx _).mul (hw _)).add (hb _)

theorem isReal_score (q : (⟨3, ![16, 1, 64]⟩ : Shape).Idx → EReal) (x : (⟨2, ![8192, 1024]⟩ : Shape).Idx → EReal)
    (w : (⟨2, ![3072, 1024]⟩ : Shape).Idx → EReal) (b : (⟨1, ![3072]⟩ : Shape).Idx → EReal)
    (hq : ∀ i, IsReal (q i)) (hx : ∀ i, IsReal (x i)) (hw : ∀ i, IsReal (w i)) (hb : ∀ i, IsReal (b i))
    (h : Fin 16) (k : Fin 8192) : IsReal (score q x w b h k) := by
  unfold score
  exact (IsReal.sum _ fun d => (hq _).mul (isReal_proj _ _ x w b hx hw hb k _)).mul isReal_eighth

theorem isReal_value (x : (⟨2, ![8192, 1024]⟩ : Shape).Idx → EReal) (w : (⟨2, ![3072, 1024]⟩ : Shape).Idx → EReal)
    (b : (⟨1, ![3072]⟩ : Shape).Idx → EReal)
    (hx : ∀ i, IsReal (x i)) (hw : ∀ i, IsReal (w i)) (hb : ∀ i, IsReal (b i))
    (h : Fin 16) (d : Fin 64) (k : Fin 8192) : IsReal (value x w b h d k) := by
  unfold value
  exact isReal_proj _ _ x w b hx hw hb k _

end Cert.Attention

end
-- ==== Proof.HeadsAgree.lean ====
/-
  The law for one head and one value coordinate, stated on the argument arrays.

  The query heads reach the two programs through two arrays `q`, `q'`; both hold, at `(h, 0, d)`,
  the same projection of input row 0.  The score reads the query only at those places, so the two
  scores are equal; and since the projection of real arguments is real, scores and values are real
  numbers, which is what the tile-by-tile law asks for.
-/
import proofs.«157563_j35897336660262_2_alg».proof.Proof.Attention
import proofs.«157563_j35897336660262_2_alg».proof.Proof.SoftmaxTiles
import proofs.«157563_j35897336660262_2_alg».proof.Proof.RealClosure

noncomputable section

namespace Cert.Attention

open Idealize.ShloMosaic Idealize.ShloMosaic.ValueIdx

/-- The score only reads the query at (h, 0, d). -/
theorem score_congr (q q' : (⟨3, ![16, 1, 64]⟩ : Shape).Idx → EReal) (x : (⟨2, ![8192, 1024]⟩ : Shape).Idx → EReal)
    (w : (⟨2, ![3072, 1024]⟩ : Shape).Idx → EReal) (b : (⟨1, ![3072]⟩ : Shape).Idx → EReal)
    (hq : ∀ (h : Fin 16) (d : Fin 64), q (ix3 h (0 : Fin 1) d) = q' (ix3 h (0 : Fin 1) d))
    (h : Fin 16) (k : Fin 8192) : score q x w b h k = score q' x w b h k := by
  unfold score
  refine congrArg (· * _) (Finset.sum_congr rfl fun d _ => ?_)
  rw [hq h d]

/-- Every index of the 16×1×64 array is `(a, 0, c)`: the middle axis has one place. -/
theorem exists_ix3_zero (i : (⟨3, ![16, 1, 64]⟩ : Shape).Idx) :
    ∃ (a : Fin 16) (c : Fin 64), i = ix3 a (0 : Fin 1) c := by
  refine ⟨i 0, i 2, ?_⟩
  funext a
  match a with
  | ⟨0, _⟩ => rfl
  | ⟨1, _⟩ => exact Subsingleton.elim (α := Fin 1) _ _
  | ⟨2, _⟩ => rfl

theorem tiled_eq_whole_of_args (q q' : (⟨3, ![16, 1, 64]⟩ : Shape).Idx → EReal)
    (x : (⟨2, ![8192, 1024]⟩ : Shape).Idx → EReal)
    (w : (⟨2, ![3072, 1024]⟩ : Shape).Idx → EReal) (b : (⟨1, ![3072]⟩ : Shape).Idx → EReal)
    (hx : ∀ i, IsReal (x i)) (hw : ∀ i, IsReal (w i)) (hb : ∀ i, IsReal (b i))
    (hq : ∀ (h : Fin 16) (d : Fin 64), q (ix3 h (0 : Fin 1) d) = proj 0 (by norm_num) x w b (0 : Fin 8192) (col h d))
    (hq' : ∀ (h : Fin 16) (d : Fin 64), q' (ix3 h (0 : Fin 1) d) = proj 0 (by norm_num) x w b (0 : Fin 8192) (col h d))
    (h : Fin 16) (d : Fin 64) :
    tiled (score q x w b h) (value x w b h d) = whole (score q' x w b h) (value x w b h d) := by
  have hqr : ∀ i, IsReal (q i) := by
    intro i
    obtain ⟨a, c, rfl⟩ := exists_ix3_zero i
    rw [hq a c]
    exact isReal_proj _ _ x w b hx hw hb _ _
  have hs : ∀ k, IsReal (score q x w b h k) := fun k => isReal_score q x w b hqr hx hw hb h k
  have hv : ∀ k, IsReal (value x w b h d k) := fun k => isReal_value x w b hx hw hb h d k
  have hqq : score q x w b h = score q' x w b h :=
    funext fun k => score_congr q q' x w b (fun h d => (hq h d).trans (hq' h d).symm) h k
  rw [tiled_eq_whole _ _ hs hv, hqq]

end Cert.Attention

end
-- ==== Proof.RefRead.lean ====
/-
  The reference program read at an index, down to the argument arrays.

  The reference computes single-query multi-head attention in one piece.  With `x` the 8192 × 1024 input,
  `w` the stacked 3072 × 1024 projection weight and `b` its 3072 biases, the three projections are
  `Σ_j x[k, j] · w[off + e, j] + b[off + e]` (`off` = 0, 1024, 2048 for query, key, value; the query only
  for row 0).  A reshape of the 1024 columns into 16 heads of 64 followed by a transposition puts column
  `64·h + d` at head `h`, coordinate `d`.  Head `h`'s score of key `k` is the query's head row against
  the key's, times 1/8; the row maximum is a fold of `max` from `-∞` (and one more `max` with `-∞`); the
  weights are `exp(s k − max) / (0 + Σ_k' exp(s k' − max))`; the result is their sum against the values.
  Each step below reads one operation of the program at an index and identifies the composed index
  functions with the coordinates they compute.
-/
import proofs.«157563_j35897336660262_2_alg».proof.Proof.Gen.ReferenceIdeal.Read
import proofs.«157563_j35897336660262_2_alg».proof.Proof.Attention
import Idealize.ShloMosaic.PureOps.Reduce
import Idealize.ShloMosaic.PureOps.Ideal.Laws

noncomputable section

namespace Cert.RefRead

open Cert.ReferenceIdeal Cert.ReferenceIdeal.Gen Cert.ReferenceIdeal.Read Idealize.ShloMosaic Idealize.ShloMosaic.ValueIdx

/-- Row 0 of the query projection: `%6[0, e] = Σ_j x[0, j] · w[e, j] + b[e]`. -/
theorem v6_at (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (e : Fin 1024) :
    val_main_v6 (F := Ideal) x0 x1 x2 (ix2 (0 : Fin 1) e) = Attention.proj 0 (by norm_num) x0 x1 x2 (0 : Fin 8192) e := by
  rw [val_main_v6_apply, val_main_v3_apply, val_main_v5_apply, val_main_v4_apply]
  unfold Attention.proj
  simp only [Ideal.addf_def]
  refine congrArg₂ (· + ·) (Finset.sum_congr rfl fun j _ => ?_) ?_
  · rw [val_main_v0_apply, val_main_v2_apply, val_main_v1_apply]
    refine congrArg₂ (· * ·) (congrArg x0 ?_) (congrArg x1 ?_)
    · exact funext fun a => Fin.ext (by match a with | ⟨0, _⟩ => rfl | ⟨1, _⟩ => rfl)
    · exact funext fun a => Fin.ext (by
        match a with
        | ⟨0, _⟩ => show e.val = 0 + e.val; omega
        | ⟨1, _⟩ => rfl)
  · exact congrArg x2 (funext fun a => Fin.ext (by
      match a with
      | ⟨0, _⟩ => show e.val = 0 + e.val; omega))

/-- The key projection: `%13[k, e] = Σ_j x[k, j] · w[1024 + e, j] + b[1024 + e]`. -/
theorem v13_at (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (k : Fin 8192) (e : Fin 1024) :
    val_main_v13 (F := Ideal) x0 x1 x2 (ix2 k e) = Attention.proj 1024 (by norm_num) x0 x1 x2 k e := by
  rw [val_main_v13_apply, val_main_v9_apply, val_main_v12_apply, val_main_v11_apply, val_main_v10_apply]
  unfold Attention.proj
  simp only [Ideal.addf_def]
  refine congrArg₂ (· + ·) (Finset.sum_congr rfl fun j _ => ?_) ?_
  · rw [val_main_v8_apply, val_main_v7_apply]
    refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x2 (funext fun a => Fin.ext (by match a with | ⟨0, _⟩ => rfl))

/-- The value projection: `%20[k, e] = Σ_j x[k, j] · w[2048 + e, j] + b[2048 + e]`. -/
theorem v20_at (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (k : Fin 8192) (e : Fin 1024) :
    val_main_v20 (F := Ideal) x0 x1 x2 (ix2 k e) = Attention.proj 2048 (by norm_num) x0 x1 x2 k e := by
  rw [val_main_v20_apply, val_main_v16_apply, val_main_v19_apply, val_main_v18_apply, val_main_v17_apply]
  unfold Attention.proj
  simp only [Ideal.addf_def]
  refine congrArg₂ (· + ·) (Finset.sum_congr rfl fun j _ => ?_) ?_
  · rw [val_main_v15_apply, val_main_v14_apply]
    refine congrArg₂ (· * ·) (congrArg x0 ?_) (congrArg x1 ?_)
    · exact funext fun a => Fin.ext (by match a with | ⟨0, _⟩ => rfl | ⟨1, _⟩ => rfl)
    · exact funext fun a => Fin.ext (by match a with | ⟨0, _⟩ => rfl | ⟨1, _⟩ => rfl)
  · exact congrArg x2 (funext fun a => Fin.ext (by match a with | ⟨0, _⟩ => rfl))

/-- The query, head by head: `%22[h, 0, d] = %6[0, 64·h + d]` (a reshape of the 1024 columns into 16 × 64, then a transposition). -/
theorem ref_query (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (h : Fin 16) (d : Fin 64) :
    val_main_v22 (F := Ideal) x0 x1 x2 (ix3 h (0 : Fin 1) d) = Attention.proj 0 (by norm_num) x0 x1 x2 (0 : Fin 8192) (Attention.col h d) := by
  rw [val_main_v22_apply, val_main_v21_apply, ← v6_at]
  refine congrArg (val_main_v6 (F := Ideal) x0 x1 x2) (funext fun a => Fin.ext ?_)
  have hh := h.isLt
  have hd := d.isLt
  match a with
  | ⟨0, _⟩ => rfl
  | ⟨1, _⟩ => show ((0 * 16 + h.val) * 64 + d.val) % 1024 = 64 * h.val + d.val; omega

/-- The keys, head by head: `%24[h, d, k] = %13[k, 64·h + d]`. -/
theorem ref_key (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (h : Fin 16) (d : Fin 64) (k : Fin 8192) :
    val_main_v24 (F := Ideal) x0 x1 x2 (ix3 h d k) = Attention.proj 1024 (by norm_num) x0 x1 x2 k (Attention.col h d) := by
  rw [val_main_v24_apply, val_main_v23_apply, ← v13_at]
  refine congrArg (val_main_v13 (F := Ideal) x0 x1 x2) (funext fun a => Fin.ext ?_)
  have hh := h.isLt
  have hd := d.isLt
  have hk := k.isLt
  match a with
  | ⟨0, _⟩ => show ((k.val * 16 + h.val) * 64 + d.val) / 1024 = k.val; omega
  | ⟨1, _⟩ => show ((k.val * 16 + h.val) * 64 + d.val) % 1024 = 64 * h.val + d.val; omega

/-- The values, head by head: `%26[h, k, d] = %20[k, 64·h + d]`. -/
theorem ref_value (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (h : Fin 16) (k : Fin 8192) (d : Fin 64) :
    val_main_v26 (F := Ideal) x0 x1 x2 (ix3 h k d) = Attention.value x0 x1 x2 h d k := by
  unfold Attention.value
  rw [val_main_v26_apply, val_main_v25_apply, ← v20_at]
  refine congrArg (val_main_v20 (F := Ideal) x0 x1 x2) (funext fun a => Fin.ext ?_)
  have hh := h.isLt
  have hd := d.isLt
  have hk := k.isLt
  match a with
  | ⟨0, _⟩ => show ((k.val * 16 + h.val) * 64 + d.val) / 1024 = k.val; omega
  | ⟨1, _⟩ => show ((k.val * 16 + h.val) * 64 + d.val) % 1024 = 64 * h.val + d.val; omega

/-- The bit pattern `0xFF800000` is `-∞`. -/
theorem ofBits_neg_inf : Ideal.ofBits .f32 0xFF800000#32 = (⊥ : EReal) := by
  simp [Ideal.ofBits, Ideal.ieee]

/-- The score: `%29[h, 0, k] = (Σ_d %22[h, 0, d] · %24[h, d, k]) · 0.125`. -/
theorem ref_score (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (h : Fin 16) (k : Fin 8192) :
    val_main_v29 (F := Ideal) x0 x1 x2 (ix3 h (0 : Fin 1) k)
      = Attention.score (val_main_v22 (F := Ideal) x0 x1 x2) x0 x1 x2 h k := by
  rw [val_main_v29_apply, val_main_v27_apply, val_main_v28_apply, val_main_cst_apply]
  unfold Attention.score
  simp only [Ideal.mulf_def, Ideal.ofBits_def]
  refine congrArg (· * Ideal.ofBits .f32 0x3E000000#32) (Finset.sum_congr rfl fun d _ => ?_)
  rw [← ref_key]
  refine congrArg₂ (· * ·) (congrArg _ ?_) (congrArg _ ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The row maximum: `%32[h, 0] = max(-∞, max_k %29[h, 0, k])`, the inner maximum a fold from `-∞`. -/
theorem ref_max (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (h : Fin 16) :
    val_main_v32 (F := Ideal) x0 x1 x2 (ix2 h (0 : Fin 1))
      = Attention.rowMax fun k => val_main_v29 (F := Ideal) x0 x1 x2 (ix3 h (0 : Fin 1) k) := by
  have hred : Shape.Reduces S16x1x8192 [2] S16x1 := by decide
  have hfold := Host.reduce_eq_fold_single (max : EReal → EReal → EReal) (val_main_v29 (F := Ideal) x0 x1 x2)
    (val_main_cst_0 (F := Ideal)) reducesTo_S16x1x8192_S16x1_d2 hred h_S_ (ix2 h (0 : Fin 1))
  rw [val_main_v32_apply, val_main_v31_apply, val_main_cst_1_apply]
  unfold Attention.rowMax val_main_v30
  simp only [Ideal.maximumf_def, Ideal.ofBits_def]
  refine (congrArg (max _) hfold).trans ?_
  rw [val_main_cst_0_apply]
  simp only [Ideal.ofBits_def, ofBits_neg_inf]
  refine congrArg (max ⊥) ?_
  refine congrArg (fun f => Finset.fold max (⊥ : EReal) f Finset.univ) (funext fun k => ?_)
  exact congrArg (val_main_v29 (F := Ideal) x0 x1 x2)
    (funext fun a => Fin.ext (by match a with | ⟨0, _⟩ => rfl | ⟨1, _⟩ => rfl | ⟨2, _⟩ => rfl))

/-- The exponentials: `%36[h, 0, k] = exp(s k − rowMax s)` with `s` head `h`'s scores. -/
theorem ref_exp (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (h : Fin 16) (k : Fin 8192) :
    val_main_v36 (F := Ideal) x0 x1 x2 (ix3 h (0 : Fin 1) k)
      = Ideal.exp (Attention.score (val_main_v22 (F := Ideal) x0 x1 x2) x0 x1 x2 h k
          - Attention.rowMax (Attention.score (val_main_v22 (F := Ideal) x0 x1 x2) x0 x1 x2 h)) := by
  have e : idx_main_v33 (idx_main_v34 (ix3 h (0 : Fin 1) k)) = ix2 h (0 : Fin 1) :=
    funext fun a => Fin.ext (by match a with | ⟨0, _⟩ => rfl | ⟨1, _⟩ => rfl)
  rw [val_main_v36_apply, val_main_v35_apply, val_main_v34_apply, val_main_v33_apply, e, ref_max, ref_score]
  simp only [Ideal.hostUnary_exp_def, Ideal.subf_def]
  refine congrArg (fun m => Ideal.exp (_ - Attention.rowMax m)) (funext fun k' => ref_score x0 x1 x2 h k')

/-- The attention of head `h`, coordinate `d`: `%41[h, 0, d] = Σ_k (%36[h,0,k] / (0 + Σ_k' %36[h,0,k'])) · %26[h, k, d]`. -/
theorem ref_attn (x0 : (⟨S8192x1024, .f32⟩ : BufTy).Contents (Elt Ideal)) (x1 : (⟨S3072x1024, .f32⟩ : BufTy).Contents (Elt Ideal))
    (x2 : (⟨S3072, .f32⟩ : BufTy).Contents (Elt Ideal)) (h : Fin 16) (d : Fin 64) :
    val_main_v41 (F := Ideal) x0 x1 x2 (ix3 h (0 : Fin 1) d)
      = Attention.whole (Attention.score (val_main_v22 (F := Ideal) x0 x1 x2) x0 x1 x2 h) (Attention.value x0 x1 x2 h d) := by
  rw [val_main_v41_apply]
  unfold Attention.whole
  refine Finset.sum_congr rfl fun k _ => ?_
  have el : lidx_main_v41 (ix3 h (0 : Fin 1) d) k = ix3 h (0 : Fin 1) k :=
    funext fun a => Fin.ext (by match a with | ⟨0, _⟩ => rfl | ⟨1, _⟩ => rfl | ⟨2, _⟩ => rfl)
  have er : ridx_main_v41 (ix3 h (0 : Fin 1) d) k = ix3 h k d :=
    funext fun a => Fin.ext (by match a with | ⟨0, _⟩ => rfl | ⟨1, _⟩ => rfl | ⟨2, _⟩ => rfl)
  have e : idx_main_v38 (idx_main_v39 (ix3 h (0 : Fin 1) k)) = ix2 h (0 : Fin 1) :=
    funext fun a => Fin.ext (by match a with | ⟨0, _⟩ => rfl | ⟨1, _⟩ => rfl)
  rw [el, er, ref_value, val_main_v40_apply, val_main_v39_apply, val_main_v38_apply, e, val_main_v37_apply,
    val_main_cst_2_apply, ref_exp]
  simp only [Ideal.hostDivf_def, Ideal.ofBits_def, Ideal.ofBits_zero_f32]
  refine congrArg (fun t => Ideal.div _ (0 + t) * _) (Finset.sum_congr rfl fun k' _ => ?_)
  rw [← ref_exp]
  exact congrArg (val_main_v36 (F := Ideal) x0 x1 x2)
    (funext fun a => Fin.ext (by match a with | ⟨0, _⟩ => rfl | ⟨1, _⟩ => rfl | ⟨2, _⟩ => rfl))

end Cert.RefRead

end
-- ==== Proof.FiniteInputs.lean ====
/-
  Finiteness of the argument arrays, read off the precondition.

  The precondition is the conjunction, over the five argument arrays, of "every element x has |x| < +∞".
  On the extended reals |x| is max x (-x), and +∞ is the top element; an extended real whose absolute
  value is below the top element is neither -∞ nor +∞, hence a real number.
-/
import proofs.«157563_j35897336660262_2_alg».proof.Pre_finite_inputs
import proofs.«157563_j35897336660262_2_alg».proof.Proof.Attention
import Idealize.ShloMosaic.Lib.ReduceAll
import Idealize.ShloMosaic.PureOps.Ideal.Laws

noncomputable section

namespace Cert.FiniteInputs

open Idealize.ShloMosaic Idealize.ShloMosaic.ValueIdx

/-- The bit pattern of +∞ denotes the top element. -/
theorem ofBits_inf : Ideal.ofBits .f32 0x7F800000#32 = (⊤ : EReal) := by
  simp [Ideal.ofBits, Ideal.ieee]

/-- An extended real with max x (-x) < ⊤ is a real number. -/
theorem isReal_of_abs_lt_top (x : EReal) (h : max x (-x) < (⊤ : EReal)) : Attention.IsReal x := by
  induction x using EReal.rec with
  | bot => simp at h
  | coe r => exact ⟨r, rfl⟩
  | top => simp at h

/-- The rank-0 shape has one index. -/
instance : Subsingleton (⟨0, ![]⟩ : Shape).Idx := ⟨fun a b => funext fun d => d.elim0⟩

/-- One conjunct of the precondition: if the "all" of |x| < +∞ over an array is true, every element is real. -/
theorem real_of_all {s : Shape} {axes : List (Fin s.rank)} (x : FVec Ideal s .f32)
    (bc : (⟨0, ![]⟩ : Shape).BroadcastsInDim s (![] : Fin 0 → Fin s.rank))
    (h : s.ReducesTo axes (⟨0, ![]⟩ : Shape)) (hu : 0 < (⟨0, ![]⟩ : Shape).numel)
    (e : Host.reduce IntOp.andi
          (cmpf .olt (Host.absf x) (broadcastInDim s ![] bc (constant (F := Ideal) (⟨0, ![]⟩ : Shape) .f32 0x7F800000#32)))
          (constantI (⟨0, ![]⟩ : Shape) 1 1#1) h hu ix0 = 1#1) :
    ∀ i, Attention.IsReal (x i) := by
  intro i
  have hi := Host.reduce_andi_all _ _ h hu ix0 e i
  apply isReal_of_abs_lt_top
  have h2 : Ideal.cmp .olt (max (x i) (-(x i))) (Ideal.ofBits .f32 0x7F800000#32) = 1#1 := hi
  rw [ofBits_inf] at h2
  by_contra hc
  simp [Ideal.cmp, hc] at h2

variable [Cert.Pre_finite_inputs.Facts]

open Cert.Pre_finite_inputs in
theorem real_of_pre (a0 : FVec Ideal S8192x1024 .f32) (a1 : FVec Ideal S3072x1024 .f32) (a2 : FVec Ideal S3072 .f32)
    (a3 : FVec Ideal S1024x1024 .f32) (a4 : FVec Ideal S1024 .f32)
    (hpre : Cert.Pre_finite_inputs.fn (F := Ideal) a0 a1 a2 a3 a4 = fun _ => 1#1) :
    (∀ i, Attention.IsReal (a0 i)) ∧ (∀ i, Attention.IsReal (a1 i)) ∧ (∀ i, Attention.IsReal (a2 i)) ∧
      (∀ i, Attention.IsReal (a3 i)) ∧ (∀ i, Attention.IsReal (a4 i)) := by
  have h := congrFun hpre ix0
  dsimp only [Cert.Pre_finite_inputs.fn, Cert.Pre_finite_inputs.fn_part1, andi] at h
  obtain ⟨h0123, h4⟩ := IntOp.andi_eq_one.1 h
  obtain ⟨h012, h3⟩ := IntOp.andi_eq_one.1 h0123
  obtain ⟨h01, h2⟩ := IntOp.andi_eq_one.1 h012
  obtain ⟨h0, h1⟩ := IntOp.andi_eq_one.1 h01
  exact ⟨real_of_all a0 _ _ _ h0, real_of_all a1 _ _ _ h1, real_of_all a2 _ _ _ h2,
    real_of_all a3 _ _ _ h3, real_of_all a4 _ _ _ h4⟩

end Cert.FiniteInputs

end
-- ==== Proof.Bridge.lean ====
/-
  The kernel's program against the reference, at the attention output.

  After the kernel's region each of the three result arrays holds, at (tile, head), that tile's maximum, sum of
  exponentials and weighted values for the head; the host lines after the region rescale the tiles to the common
  maximum, add them and divide.  Read at (head, coordinate) this is the tiled road of the specification, over the scores
  and values of the argument arrays.  The reference's softmax-weighted sum, read at the same place, is the whole
  road over the same scores and values.  Under the precondition every argument entry is a real number, and for
  real scores and values the two roads give one number: rescaling a tile's exponentials from the tile's maximum to
  the common one multiplies numerator and denominator terms by the same positive factor.
-/
import proofs.«157563_j35897336660262_2_alg».proof.Proof.KernelArrays
import proofs.«157563_j35897336660262_2_alg».proof.Proof.KernelInputs
import proofs.«157563_j35897336660262_2_alg».proof.Proof.CombineTail
import proofs.«157563_j35897336660262_2_alg».proof.Proof.HeadsAgree
import proofs.«157563_j35897336660262_2_alg».proof.Proof.RefRead
import proofs.«157563_j35897336660262_2_alg».proof.Proof.FiniteInputs
import proofs.«157563_j35897336660262_2_alg».proof.Proof.Gen.Pre_finite_inputs

noncomputable section

namespace Cert.Bridge

open Cert.KernelIdeal Cert.KernelIdeal.Gen Idealize.ShloMosaic Idealize.ShloMosaic.TcCoe Idealize.SL.Sem Idealize.ShloMosaic.ValueIdx

variable (m : (ℓ : Loc nD τ sig) → Buf (Elt Ideal) ℓ)

/-- The combined tiles are the reference's attention output of the same argument arrays, entry by entry. -/
theorem attn_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    CombineTail.attnOut (F := Ideal) (KernelArrays.G6 m c) (KernelArrays.G7 m c) (KernelArrays.G8 m c)
      = Cert.ReferenceIdeal.Read.val_main_v41 (F := Ideal) (m ((c.tc : Thread nD τ).loc main_arg0)) (m ((c.tc : Thread nD τ).loc main_arg1))
          (m ((c.tc : Thread nD τ).loc main_arg2)) := by
  obtain ⟨hx, hw, hb, -, -⟩ := FiniteInputs.real_of_pre _ _ _ _ _ hpre
  funext i
  obtain ⟨h, u, d, rfl⟩ : ∃ (h : Fin 16) (u : Fin 1) (d : Fin 64), i = ix3 h u d := ⟨i 0, i 1, i 2, eq_ix3 i⟩
  obtain rfl : u = 0 := Subsingleton.elim _ _
  refine (CombineTail.attnOut_apply _ _ _ h d).trans (Eq.trans ?_ (RefRead.ref_attn _ _ _ h d).symm)
  exact Attention.tiled_eq_whole_of_args (V m c main_v12 : S16x1x64.Idx → EReal) _ _ _ _ hx hw hb (KernelInputs.V_q m c)
    (RefRead.ref_query _ _ _) h d

end Cert.Bridge

end
-- ==== Proof.lean ====
/-
  The certificate's claim: a single-query multi-head attention kernel against its reference.

  Both programs project the first input row to 16 query heads, project every input row to keys and values, score
  each head's query against the 8192 keys (times 1/8), take the softmax of each head's scores and the
  softmax-weighted mean of the values, lay the heads side by side and apply the output projection.  The reference
  takes one softmax over all keys.  The kernel cuts the keys into 16 tiles of 512: each grid point computes its
  tile's maximum m_i, the sum l_i of exp(s − m_i) and the sum a_i of exp(s − m_i)·v, and the host lines after the
  region rescale by exp(m_i − M), M the maximum of the m_i, add the tiles and divide.  On real scores and values
  exp(s − m_i)·exp(m_i − M) = exp(s − M), so numerator and denominator are those of the one softmax; the precondition
  (every argument entry finite) makes all scores and values real.  The output projection is the same function of
  the attention output in both programs.

  The three frame conjuncts are the generated frame runs (the reference's is its generated run with the result
  dropped); the ideal pass rewrote nothing, so the idealization conjunct is trivial; the value conjunct is assembled
  here from the kernel program's run (Proof/KernelArrays.lean), the reference's run read at an index
  (Proof/RefRead.lean) and the law joining the two roads (Proof/Bridge.lean).
-/
import proofs.«157563_j35897336660262_2_alg».proof.Defs
import proofs.«157563_j35897336660262_2_alg».proof.Proof.Gen.Kernel
import proofs.«157563_j35897336660262_2_alg».proof.Proof.Gen.Kernel.Skeleton
import proofs.«157563_j35897336660262_2_alg».proof.Proof.Gen.Kernel.Launch
import proofs.«157563_j35897336660262_2_alg».proof.Proof.Gen.Kernel.Points
import proofs.«157563_j35897336660262_2_alg».proof.Proof.Gen.Kernel.Frame
import proofs.«157563_j35897336660262_2_alg».proof.Proof.Gen.KernelIdeal
import proofs.«157563_j35897336660262_2_alg».proof.Proof.Gen.KernelIdeal.Skeleton
import proofs.«157563_j35897336660262_2_alg».proof.Proof.Gen.KernelIdeal.Launch
import proofs.«157563_j35897336660262_2_alg».proof.Proof.Gen.KernelIdeal.Points
import proofs.«157563_j35897336660262_2_alg».proof.Proof.Gen.KernelIdeal.Frame
import proofs.«157563_j35897336660262_2_alg».proof.Proof.Gen.ReferenceIdeal
import proofs.«157563_j35897336660262_2_alg».proof.Proof.Gen.ReferenceIdeal.Run
import proofs.«157563_j35897336660262_2_alg».proof.Proof.Gen.ReferenceIdeal.Read
import proofs.«157563_j35897336660262_2_alg».proof.Proof.Gen.Pre_finite_inputs
import proofs.«157563_j35897336660262_2_alg».proof.Proof.KernelArrays
import proofs.«157563_j35897336660262_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's result is the output projection of its attention output: the last six host lines of both
    programs are one function. -/
theorem ref_result (x0 : (⟨Cert.ReferenceIdeal.S8192x1024, .f32⟩ : BufTy).Contents (Elt Ideal)) (x1 : (⟨Cert.ReferenceIdeal.S3072x1024, .f32⟩ : BufTy).Contents (Elt Ideal))
    (x2 : (⟨Cert.ReferenceIdeal.S3072, .f32⟩ : BufTy).Contents (Elt Ideal)) (x3 : (⟨Cert.ReferenceIdeal.S1024x1024, .f32⟩ : BufTy).Contents (Elt Ideal))
    (x4 : (⟨Cert.ReferenceIdeal.S1024, .f32⟩ : BufTy).Contents (Elt Ideal)) :
    Cert.ReferenceIdeal.Read.val_main_v47 (F := Ideal) x0 x1 x2 x3 x4
      = Cert.CombineTail.outProj (F := Ideal) (Cert.ReferenceIdeal.Read.val_main_v41 (F := Ideal) x0 x1 x2) x3 x4 := rfl

/-- The two idealized programs, from memories agreeing on the arguments, end with equal results. -/
theorem algebraic : Cert.algebraic_KernelIdeal_ReferenceIdeal := by
  intro m ρ m' ρ' hpre hagree
  refine ⟨fun c => Cert.CombineTail.outProj (F := Ideal)
      (Cert.CombineTail.attnOut (F := Ideal) (Cert.KernelArrays.G6 m c) (Cert.KernelArrays.G7 m c) (Cert.KernelArrays.G8 m c))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelArrays.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, (hagree c).1, (hagree c).2.1, (hagree c).2.2.1, (hagree c).2.2.2.1, (hagree c).2.2.2.2,
    ref_result, ← Cert.Bridge.attn_eq m c (hpre c)]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
